-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : FVec F S8192x1024 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S8192x1024 .f32 := mulf main_arg1 main_arg1
  let main_cst_6 : FVec F S_ .f32 := constant S_ .f32 0x00000000#32
  let main_v20 : FVec F S_ .f32 := (fun x v => Host.reduceAdd x v reducesTo_S8192x1024_S_d0_1 h_S_) main_v19 main_cst_6
  let main_cst_7 : FVec F S_ .f32 := constant S_ .f32 0x00000000#32
  let main_v21 : IVec S_ 1 := cmpf .ogt main_v20 main_cst_7
  let main_v22 : IVec S_ 1 := andi main_v18 main_v21
  main_v22

def fn {F : FTy → Type} [FloatOps F] (main_arg0 : FVec F S8192x1024 .f32) (main_arg1 : FVec F S8192x1024 .f32) (main_arg2 : FVec F S8192x1024 .f32) (main_arg3 : FVec F S8192 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg1 main_v13 main_v16
-- ==== Kernel.lean ====
abbrev S8192x1024 : Shape := ⟨2, ![8192, 1024]⟩
abbrev S8192 : Shape := ⟨1, ![8192]⟩
abbrev S2x8x128 : Shape := ⟨3, ![2, 8, 128]⟩
abbrev S1024x1024 : Shape := ⟨2, ![1024, 1024]⟩
abbrev S1x8x128 : Shape := ⟨3, ![1, 8, 128]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S1x1x1 : Shape := ⟨3, ![1, 1, 1]⟩
abbrev S_ : Shape := ⟨0, ![]⟩
abbrev S8192x1 : Shape := ⟨2, ![8192, 1]⟩
abbrev S512x1024 : Shape := ⟨2, ![512, 1024]⟩
abbrev S512x1 : Shape := ⟨2, ![512, 1]⟩
abbrev S512 : Shape := ⟨1, ![512]⟩

abbrev nBuf : Space → Nat
  | .hbm => 16
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192, .f32⟩
  | .hbm, ⟨4, _⟩ => ⟨S2x8x128, .f32⟩
  | .hbm, ⟨5, _⟩ => ⟨S1x1x1, .f32⟩
  | .hbm, ⟨6, _⟩ => ⟨S_, .f32⟩
  | .hbm, ⟨7, _⟩ => ⟨S1x1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x1, .f32⟩
  | .hbm, ⟨12, _⟩ => ⟨S8192x1, .f32⟩
  | .hbm, ⟨13, _⟩ => ⟨S8192x1024, .f32⟩
  | .hbm, ⟨14, _⟩ => ⟨S8192x1, .f32⟩
  | .hbm, ⟨15, _⟩ => ⟨S8192, .f32⟩
  | .local _ .vmem, ⟨0, _⟩ => ⟨S1024x1024, .f32⟩
  | .local _ .vmem, ⟨1, _⟩ => ⟨S1024x1024, .f32⟩
  | .local _ .vmem, ⟨2, _⟩ => ⟨S1x8x128, .f32⟩
  | .local _ .vmem, ⟨3, _⟩ => ⟨S1x8x128, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1, .f32⟩
  | .local _ .vmem, ⟨11, _⟩ => ⟨S512x1, .f32⟩
  | .local _ .vmem, ⟨12, _⟩ => ⟨S1x1, .f32⟩
  | .local _ .vmem, ⟨13, _⟩ => ⟨S512x1024, .f32⟩
  | .local _ .vmem, ⟨14, _⟩ => ⟨S512x1024, .f32⟩
  | .local _ .vmem, ⟨15, _⟩ => ⟨S512x1, .f32⟩
  | .local _ .vmem, ⟨16, _⟩ => ⟨S512x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S1x8x128_S1x8x128_0_0_0 : ∀ a, (![0, 0, 0] : Fin 3 → Nat) a + S1x8x128.size a ≤ S1x8x128.size a
  h_S1x8x128 : 0 < S1x8x128.numel
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1x1 : S1x1.ShapeCasts S1x1x1
  broadcasts_S1x1x1_S1x8x128 : S1x1x1.Broadcasts S1x8x128
  shapeCasts_S1x8x128_S1x8x128 : S1x8x128.ShapeCasts S1x8x128
  slices_S2x8x128_S1x1x1_0_0_0 : S2x8x128.Slices ![0, 0, 0] S1x1x1
  shapeCasts_S1x1x1_S_ : S1x1x1.ShapeCasts S_
  slices_S2x8x128_S1x1x1_1_0_0 : S2x8x128.Slices ![1, 0, 0] S1x1x1
  shapeCasts_S_S1x1 : S_.ShapeCasts S1x1
  shapeCasts_S8192_S8192x1 : S8192.ShapeCasts S8192x1
  inb_S512x1024_S512x1024_0_0 : ∀ a, (![0, 0] : Fin 2 → Nat) a + S512x1024.size a ≤ S512x1024.size a
  h_S512x1024 : 0 < S512x1024.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  reduces_S512x1024_S512 : S512x1024.Reduces [1] S512
  shapeCasts_S512_S512x1 : S512.ShapeCasts S512x1
  broadcasts_S512x1_S512x1024 : S512x1.Broadcasts S512x1024
  shapeCasts_S8192x1_S8192 : S8192x1.ShapeCasts S8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x128.size a ≤ S2x8x128.size a
  hwx0_1 : ∀ i : grid0.Coords, EltTy.bits .f32 = 32 ∨ (Rect.block (s := S2x8x128) S1x8x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .f32 = 32 ∨ (Rect.block (s := S8192x1024) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S8192x1024.size a
  hwx1_1 : ∀ i : grid1.Coords, EltTy.bits .f32 = 32 ∨ (Rect.block (s := S8192x1024) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S8192x1024.size a
  hwx1_2 : ∀ i : grid1.Coords, EltTy.bits .f32 = 32 ∨ (Rect.block (s := S8192x1024) S512x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S8192x1.size a
  hwx1_3 : ∀ i : grid1.Coords, EltTy.bits .f32 = 32 ∨ (Rect.block (s := S8192x1) S512x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1024.size a ≤ S8192x1024.size a
  hwx1_5 : ∀ i : grid1.Coords, EltTy.bits .f32 = 32 ∨ (Rect.block (s := S8192x1024) S512x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1.size a ≤ S8192x1.size a
  hwx1_6 : ∀ i : grid1.Coords, EltTy.bits .f32 = 32 ∨ (Rect.block (s := S8192x1) S512x1.size (cc1_transform_6 i) (hinb1_6 i)).WholeWords (EltTy.packing .f32)

variable [Facts₀]

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S512x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9_0) S512x1024.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v9_1) S512x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S8192 : Shape := ⟨1, ![8192]⟩
abbrev S_ : Shape := ⟨0, ![]⟩
abbrev S8192x1 : Shape := ⟨2, ![8192, 1]⟩

abbrev nBuf : Space → Nat
  | .hbm => 62
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S8192, .f32⟩
  | .hbm, ⟨12, _⟩ => ⟨S8192, .i1⟩
  | .hbm, ⟨13, _⟩ => ⟨S8192, .f32⟩
  | .hbm, ⟨14, _⟩ => ⟨S8192, .f32⟩
  | .hbm, ⟨15, _⟩ => ⟨S8192, .f32⟩
  | .hbm, ⟨16, _⟩ => ⟨S8192, .f32⟩
  | .hbm, ⟨17, _⟩ => ⟨S8192, .f32⟩
  | .hbm, ⟨18, _⟩ => ⟨S8192, .f32⟩
  | .hbm, ⟨19, _⟩ => ⟨S8192, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S8192x1024, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S8192, .f32⟩
  | .hbm, ⟨61, _⟩ => ⟨S8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst_1 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_4 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_5 : Ref sig .tc := ⟨.hbm, 54, rfl⟩
abbrev main_v31 : Ref sig .tc := ⟨.hbm, 55, rfl⟩
abbrev main_v32 : Ref sig .tc := ⟨.hbm, 56, rfl⟩
abbrev main_cst_6 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S_S8192 : S_.BroadcastsInDim S8192 (![] : Fin 0 → Fin S8192.rank)
  reducesTo_S8192x1024_S_d0_1 : S8192x1024.ReducesTo [0, 1] S_
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  bcast_S_S8192x1024 : S_.BroadcastsInDim S8192x1024 (![] : Fin 0 → Fin S8192x1024.rank)

variable [Facts₀]

class Facts : Prop extends Facts₀ where

variable [Facts]
-- ==== Proof.KernelRun.lean ====
/-
  The kernel program's run with its two results NAMED: every weakly fair execution of @main terminates, nothing faulting,
  with the first result's buffer and the second's at the contents the last boundary of @main's fold gives them
  (the launch memory carried through the first region, the host operations between, the second region and the closing
  reshape), and the four arguments as launched. The launch is the one the frame of this program is proved by; only the
  facts read off the final state differ: here the two result buffers are kept beside the arguments.
-/
import proofs.«157534_j61649960567178_2_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Both results at the last boundary's contents, the arguments unchanged. -/
theorem run : θ_run defs (onTc (τ := τ) (main (F := F))) ⟨m, fun _ => 0, ρ⟩ (fun r => ∀ c : Dev nD,
      r.2.mem ((c.tc : Thread nD τ).loc main_v9_0) = W4 m ρ c (Proc.devRef .tc main_v9_0)
      ∧ r.2.mem ((c.tc : Thread nD τ).loc main_v10) = W4 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v9_0 (by decide)),
       h c _ (mem_uc main_v10 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.KernelRun

end
-- ==== Proof.Spec.lean ====
/-
  The planar-flow map both programs compute, as functions of the argument arrays on the extended reals.

  For a row r with rows w_r, z_r, u_r of the three matrices and the entry b_r of the vector:
    wu      = Σ_k w_r k · u_r k
    coef    = (−1 + softplus wu) − wu
    û k     = u_r k + (coef · c) · w_r k          (one program multiplies by c, the reciprocal norm of w)
    û k     = u_r k + (coef · w_r k) / d          (the other divides by d, the norm of w)
    inner   = Σ_k w_r k · z_r k + b_r,   t = tanh inner
    z' k    = z_r k + t · û k
    s       = Σ_k û k · w_r k
    inner₂  = inner + t · s          (one program)   or   Σ_k w_r k · z' k + b_r   (the other)
    logdet  = log |1 + (1 − tanh² inner₂) · s|
  The norm of w is over the WHOLE matrix: the square root of the sum of all squares (one program), or the reciprocal
  square root of that sum gathered tile by tile — eight tiles of 1024 rows, four to a half, each half accumulated
  from zero, the two halves added (the other).
-/
import Idealize.ShloMosaic.PureOps.Ideal
import Idealize.ShloMosaic.Lib.ValueIdx

noncomputable section

open scoped BigOperators

namespace Cert.Planar

open Idealize.ShloMosaic Idealize.ShloMosaic.ValueIdx

/-- The shape of the three matrices and of the vector. -/
abbrev SM : Shape := ⟨2, ![8192, 1024]⟩
abbrev SV : Shape := ⟨1, ![8192]⟩

/-- The words for −1 and 1 that both programs carry, read as extended reals. -/
abbrev negOne : EReal := Ideal.ofBits .f32 0xBF800000#32
abbrev posOne : EReal := Ideal.ofBits .f32 0x3F800000#32

/-- max x 0 + log (1 + exp (−|x − 0|)), with |y| spelt max y (−y). -/
def softplus (x : EReal) : EReal :=
  max x 0 + Ideal.log1p (Ideal.exp (-(max (x - 0) (-(x - 0)))))

section Row

variable {ι : Type} [Fintype ι]

/-- Σ_k x k · y k. -/
def dot (x y : ι → EReal) : EReal := ∑ k, x k * y k

/-- (−1 + softplus (w·u)) − w·u. -/
def coef (w u : ι → EReal) : EReal := (negOne + softplus (dot w u)) - dot w u

/-- û with the reciprocal norm `c` multiplied into the coefficient first. -/
def uhatMul (c : EReal) (w u : ι → EReal) (k : ι) : EReal := u k + (coef w u * c) * w k

/-- û with the product divided by the norm `d`. -/
def uhatDiv (d : EReal) (w u : ι → EReal) (k : ι) : EReal := u k + Ideal.div (coef w u * w k) d

/-- w·z + b. -/
def inner (w z : ι → EReal) (b : EReal) : EReal := dot w z + b

/-- z k + t · û k. -/
def shift (uh z : ι → EReal) (t : EReal) (k : ι) : EReal := z k + t * uh k

/-- log |1 + (1 − tanh² i₂) · s|. -/
def logDet (i2 s : EReal) : EReal :=
  Ideal.log (max (posOne + (posOne - Ideal.tanh i2 * Ideal.tanh i2) * s)
    (-(posOne + (posOne - Ideal.tanh i2 * Ideal.tanh i2) * s)))

/-- The first result's row, from û. -/
def zOut (uh w z : ι → EReal) (b : EReal) (k : ι) : EReal := shift uh z (Ideal.tanh (inner w z b)) k

/-- The second result's entry with inner₂ = inner + t · s. -/
def ldFused (uh w z : ι → EReal) (b : EReal) : EReal :=
  logDet (inner w z b + Ideal.tanh (inner w z b) * dot uh w) (dot uh w)

/-- The second result's entry with inner₂ = Σ_k w k · z' k + b. -/
def ldPlain (uh w z : ι → EReal) (b : EReal) : EReal :=
  logDet (dot w (zOut uh w z b) + b) (dot uh w)

end Row

/-- Row r of a matrix. -/
def row (x : SM.Idx → EReal) (r : Fin 8192) : Fin 1024 → EReal := fun k => x (ix2 r k)

/-- The two results with the reciprocal norm `c` multiplied in and inner₂ fused. -/
def kerZ (c : EReal) (z w u : SM.Idx → EReal) (b : SV.Idx → EReal) (r : Fin 8192) (k : Fin 1024) : EReal :=
  zOut (uhatMul c (row w r) (row u r)) (row w r) (row z r) (b (ix1 r)) k
def kerLd (c : EReal) (z w u : SM.Idx → EReal) (b : SV.Idx → EReal) (r : Fin 8192) : EReal :=
  ldFused (uhatMul c (row w r) (row u r)) (row w r) (row z r) (b (ix1 r))

/-- The two results with the norm `d` divided out and inner₂ summed afresh. -/
def refZ (d : EReal) (z w u : SM.Idx → EReal) (b : SV.Idx → EReal) (r : Fin 8192) (k : Fin 1024) : EReal :=
  zOut (uhatDiv d (row w r) (row u r)) (row w r) (row z r) (b (ix1 r)) k
def refLd (d : EReal) (z w u : SM.Idx → EReal) (b : SV.Idx → EReal) (r : Fin 8192) : EReal :=
  ldPlain (uhatDiv d (row w r) (row u r)) (row w r) (row z r) (b (ix1 r))

/-- The same as whole arrays (an index's coordinates are its row and its column). -/
def kerZArr (c : EReal) (z w u : SM.Idx → EReal) (b : SV.Idx → EReal) : SM.Idx → EReal := fun i => kerZ c z w u b (i 0) (i 1)
def kerLdArr (c : EReal) (z w u : SM.Idx → EReal) (b : SV.Idx → EReal) : SV.Idx → EReal := fun i => kerLd c z w u b (i 0)
def refZArr (d : EReal) (z w u : SM.Idx → EReal) (b : SV.Idx → EReal) : SM.Idx → EReal := fun i => refZ d z w u b (i 0) (i 1)
def refLdArr (d : EReal) (z w u : SM.Idx → EReal) (b : SV.Idx → EReal) : SV.Idx → EReal := fun i => refLd d z w u b (i 0)

/-- The sum of all squares of a matrix, over its index set. -/
def sumsqAll (w : SM.Idx → EReal) : EReal := ∑ i : SM.Idx, w i * w i

/-- Row 1024·t + p of the matrix, for a tile t < 8 and a row p < 1024 inside it. -/
def tileRow (t : Fin 8) (p : Fin 1024) : Fin 8192 := ⟨1024 * t.val + p.val, by omega⟩

/-- The sum of the squares of tile t: over its rows, of each row's sum over its columns. -/
def tileSumsq (w : SM.Idx → EReal) (t : Fin 8) : EReal :=
  ∑ p : Fin 1024, ∑ k : Fin 1024, w (ix2 (tileRow t p) k) * w (ix2 (tileRow t p) k)

/-- A half's four tiles accumulated from zero, in order. -/
def halfSumsq (w : SM.Idx → EReal) (t0 t1 t2 t3 : Fin 8) : EReal :=
  (((0 + tileSumsq w t0) + tileSumsq w t1) + tileSumsq w t2) + tileSumsq w t3

/-- The two halves added. -/
def kerSumsq (w : SM.Idx → EReal) : EReal := halfSumsq w 0 1 2 3 + halfSumsq w 4 5 6 7

end Cert.Planar

end
-- ==== Proof.LibColumnLayout.lean ====
/-
  A vector kept as a column, and a column spread over a row, read at an entry.

  `[a] → [a, 1]` by a shape cast: entry `(i, u)` of the column is entry `i` of the vector (both sit at row-major
  position `i`, the unit coordinate `u` being `0`). `[a, 1] → [a, b]` by a broadcast: entry `(i, j)` is the
  column's entry `(i, 0)` — the unit axis is read at `0`, the other axis at its own coordinate. Generic in the
  extents and in the element type.
-/
import Idealize.ShloMosaic.Lib.Pipeline.Value
import Idealize.ShloMosaic.Lib.ValueIdx
import Idealize.ShloMosaic.Lib.ValueLayout

noncomputable section

namespace Cert.ColumnLayout

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnLayout

end
-- ==== Proof.LibLaneEntry.lean ====
/-
  Lane operations of a vector unit read at an entry, at the extended reals. Generic in the extents.

  Integer vector operations and the vector logarithm read at an index (each by definition); an `[a, 1]` column
  taken as an `[a]` vector (`shapeCast_a1_a_apply`); the lane number — an iota along the second axis of an `[a, b]`
  shape reads the word of the second coordinate (`iota_lane`); a lane sum of an `[a, b]` array from the zero word reads,
  at row `r`, the sum of that row's entries (`laneSum`, stated with the accumulator's neutrality as a hypothesis so that
  it applies in term mode to a printed reduction whatever proof the printed term carries); and the sum of ALL
  entries of an `[a]` vector the way a vector unit takes it — laid out as one row `[1, a]`, summed along the row
  into `[1]`, kept as a `[1, 1]` matrix and read at its one entry (`rowTotal`).
-/
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.LaneEntry

variable {s : Shape} {w : ℕ} {φ : FTy} {α : Type}

theorem cmpi_apply (p : CmpIPredicate) (x y : IVec s w) (i : s.Idx) : cmpi p x y i = IntOp.cmpi p (x i) (y i) := rfl
theorem subi_apply (x y : IVec s w) (i : s.Idx) : subi x y i = IntOp.subi (x i) (y i) := rfl
theorem addi_apply (x y : IVec s w) (i : s.Idx) : addi x y i = IntOp.addi (x i) (y i) := rfl
theorem maxsi_apply (x y : IVec s w) (i : s.Idx) : maxsi x y i = IntOp.maxsi (x i) (y i) := rfl
theorem minsi_apply (x y : IVec s w) (i : s.Idx) : minsi x y i = IntOp.minsi (x i) (y i) := rfl
theorem log_apply (x : FVec Ideal s φ) (i : s.Idx) : log x i = Ideal.log (x i) := rfl

/-- An `[a, 1]` column taken as an `[a]` vector reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The lane number: an iota along the second axis of an `[a, b]` shape reads, at `(r, k)`, the word of `k`. -/
theorem iota_lane {a b : ℕ} (h : (⟨2, ![a, b]⟩ : Shape).Iotas .tc 32 [1]) (r : Fin a) (k : Fin b) :
    iota .tc ⟨2, ![a, b]⟩ 32 [1] h (ix2 r k) = BitVec.ofNat 32 k.val := by
  unfold iota
  show BitVec.ofNat 32 (0 * b + k.val) = _
  rw [Nat.zero_mul, Nat.zero_add]

/-- A lane sum of an `[a, b]` array from the zero word reads, at row `r`, the sum of the row's entries. -/
theorem laneSum {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (funext fun ax => Fin.ext (by
      match ax with | ⟨0, _⟩ => rfl | ⟨1, _⟩ => rfl)))

/-- A vector of `a` entries laid out as one row, summed along the row, kept as a 1×1 matrix and read at its one
    entry: the sum of the entries. -/
theorem rowTotal {a : ℕ} (v : FVec Ideal ⟨1, ![a]⟩ .f32) (h1 : (⟨1, ![a]⟩ : Shape).ShapeCasts ⟨2, ![1, a]⟩)
    (h2 : (⟨2, ![1, a]⟩ : Shape).Reduces [1] ⟨1, ![1]⟩)
    (hφ : FKind.Formats .f32) (hacc : (0x00000000#32 : BitVec 32) = FKind.add.neutral .f32 hφ)
    (h3 : (⟨1, ![1]⟩ : Shape).ShapeCasts ⟨2, ![1, 1]⟩)
    (h4 : ∀ ax, (![0, 0] : Fin 2 → Nat) ax < (⟨2, ![1, 1]⟩ : Shape).size ax) :
    extractAt ![0, 0] (shapeCast ⟨2, ![1, 1]⟩
        (multiReduction .add [1] ⟨1, ![1]⟩ (shapeCast ⟨2, ![1, a]⟩ v h1) 0x00000000#32 h2 hφ hacc) h3) h4
      = ∑ r : Fin a, v (ix1 r) := by
  unfold extractAt
  have e : (fun ax => (⟨(![0, 0] : Fin 2 → Nat) ax, h4 ax⟩ : Fin ((⟨2, ![1, 1]⟩ : Shape).size ax)))
      = ix2 (0 : Fin 1) (0 : Fin 1) :=
    funext fun ax => by match ax with | ⟨0, _⟩ => rfl | ⟨1, _⟩ => rfl
  rw [e, shapeCast_a_1a_apply _ _ (0 : Fin 1) (0 : Fin 1)]
  refine (laneSum (a := 1) (b := a) _ _ _ _ (0 : Fin 1)).trans (Finset.sum_congr rfl fun r _ => ?_)
  exact shapeCast_a_1a_apply v h1 (0 : Fin 1) r

end Cert.LaneEntry

end
-- ==== Proof.PlanarBody.lean ====
/-
  The second region's body at an entry. On a block of 512 rows — the rows' blocks w, z, u of the three matrices, the
  column b of the vector and the 1 × 1 array holding the reciprocal norm — the body's two stores are, entry by entry,
  the planar-flow map of the block's rows: a lane sum kept as a column is the row's sum, a column spread over the
  lanes is constant along the row, the guarded softplus the vector unit spells is the softplus (its guard compares a
  number with itself), and 0 − y is −y.
-/
import proofs.«157534_j61649960567178_2_alg».proof.Proof.Gen.KernelIdeal.Skeleton
import proofs.«157534_j61649960567178_2_alg».proof.Proof.Spec
import proofs.«157534_j61649960567178_2_alg».proof.Proof.LibColumnLayout
import proofs.«157534_j61649960567178_2_alg».proof.Proof.LibLaneEntry
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PlanarBody

open Cert.KernelIdeal Cert.KernelIdeal.Gen Idealize.ShloMosaic Idealize.ShloMosaic.ValueIdx Cert.Planar

variable {s : Shape} {φ : FTy}

/-- The transcendental vector operations read at an entry. -/
theorem exp_apply (v : FVec Ideal s φ) (i : s.Idx) : exp v i = Ideal.exp (v i) := rfl
theorem log1p_apply (v : FVec Ideal s φ) (i : s.Idx) : log1p v i = Ideal.log1p (v i) := rfl
theorem tanh_apply (v : FVec Ideal s φ) (i : s.Idx) : tanh v i = Ideal.tanh (v i) := rfl
theorem log_apply (v : FVec Ideal s φ) (i : s.Idx) : log v i = Ideal.log (v i) := rfl
theorem absf_apply (v : FVec Ideal s φ) (i : s.Idx) : absf v i = max (v i) (-(v i)) := rfl

/-- Row p of a block of 512 rows. -/
def brow (x : FVec Ideal S512x1024 .f32) (p : Fin 512) : Fin 1024 → EReal := fun k => x (ix2 p k)

/-- A lane sum kept as a column reads, at row p, the sum of the row. -/
theorem laneCol (v : FVec Ideal S512x1024 .f32) (p : Fin 512) (hφ : FKind.Formats .f32)
    (hacc : (0x00000000#32 : BitVec 32) = 0x00000000#32) :
    shapeCast S512x1 (multiReduction .add [1] S512 v 0x00000000#32 Gen.reduces_S512x1024_S512 hφ hacc) Gen.shapeCasts_S512_S512x1 (ix2 p (0 : Fin 1))
      = ∑ k : Fin 1024, v (ix2 p k) :=
  (Cert.ColumnLayout.shapeCast_a_a1_apply _ Gen.shapeCasts_S512_S512x1 p 0).trans
    (Cert.LaneEntry.laneSum v Gen.reduces_S512x1024_S512 hφ hacc p)

/-- The one entry of a 1 × 1 array. -/
theorem extract00 (x : FVec Ideal S1x1 .f32) (h : ∀ a, (![0, 0] : Fin 2 → Nat) a < S1x1.size a) :
    extractAt ![0, 0] x h = x (ix2 (0 : Fin 1) (0 : Fin 1)) :=
  congrArg x (funext fun a => Fin.ext (by match a with | ⟨0, _⟩ => rfl | ⟨1, _⟩ => rfl))

/-- No extended real differs from itself: the guard of the softplus never fires. -/
theorem cmpf_one_self (x : EReal) : FloatOps.cmpf (F := Ideal) (φ := .f32) .one x x = 0#1 := by
  show Ideal.cmp .one x x = 0#1
  simp [Ideal.cmp]

/-- The softplus as the vector unit spells it — a guarded max x 0 + log1p (exp (0 − |x − 0|)) — is the softplus. -/
theorem softplus_spelled (x : EReal) :
    Scalar.select (FloatOps.cmpf (F := Ideal) (φ := .f32) .one (x - Ideal.ofBits .f32 0x00000000#32) (x - Ideal.ofBits .f32 0x00000000#32))
        (x + Ideal.ofBits .f32 0x00000000#32)
        (max x (Ideal.ofBits .f32 0x00000000#32) + Ideal.log1p (Ideal.exp (Ideal.ofBits .f32 0x00000000#32
          - max (x - Ideal.ofBits .f32 0x00000000#32) (-(x - Ideal.ofBits .f32 0x00000000#32)))))
      = softplus x := by
  rw [cmpf_one_self, select_zero, Ideal.ofBits_zero_f32, zero_sub]
  rfl

/-- û at entry (p, k) of the block. -/
theorem uhat_apply (w u : FVec Ideal S512x1024 .f32) (inv : FVec Ideal S1x1 .f32) (p : Fin 512) (k : Fin 1024) :
    k1_pay2 (F := Ideal) w u inv (ix2 p k) = uhatMul (inv (ix2 (0 : Fin 1) (0 : Fin 1))) (brow w p) (brow u p) k := by
  unfold k1_pay2
  simp only [addf_apply, mulf_apply, subf_apply, maximumf_apply, broadcast_apply, select_apply, cmpf_apply,
    exp_apply, log1p_apply, absf_apply, extract00, Ideal.ofBits_def,
    Cert.ColumnLayout.broadcastTo_a1_ab_apply, softplus_spelled]
  rw [laneCol (mulf w u) p]
  simp only [uhatMul, coef, dot, brow, negOne, mulf_apply]

/-- w·z + b at row p. -/
theorem inner_apply (w z : FVec Ideal S512x1024 .f32) (b : FVec Ideal S512x1 .f32) (p : Fin 512) :
    k1_pay3 (F := Ideal) w z b (ix2 p (0 : Fin 1)) = inner (brow w p) (brow z p) (b (ix2 p (0 : Fin 1))) := by
  unfold k1_pay3
  simp only [addf_apply, shapeCast_self]
  rw [laneCol (mulf w z) p]
  simp only [Cert.Planar.inner, dot, brow, mulf_apply]

/-- Its hyperbolic tangent. -/
theorem tanh_apply' (w z : FVec Ideal S512x1024 .f32) (b : FVec Ideal S512x1 .f32) (p : Fin 512) :
    k1_pay4 (F := Ideal) w z b (ix2 p (0 : Fin 1)) = Ideal.tanh (inner (brow w p) (brow z p) (b (ix2 p (0 : Fin 1)))) := by
  unfold k1_pay4
  simp only [tanh_apply, inner_apply]

/-- The first store: z' at entry (p, k). -/
theorem znew_apply (w z u : FVec Ideal S512x1024 .f32) (b : FVec Ideal S512x1 .f32) (inv : FVec Ideal S1x1 .f32)
    (p : Fin 512) (k : Fin 1024) :
    k1_pay5 (F := Ideal) w z u b inv (ix2 p k)
      = zOut (uhatMul (inv (ix2 (0 : Fin 1) (0 : Fin 1))) (brow w p) (brow u p)) (brow w p) (brow z p) (b (ix2 p (0 : Fin 1))) k := by
  unfold k1_pay5
  simp only [addf_apply, mulf_apply, Cert.ColumnLayout.broadcastTo_a1_ab_apply, tanh_apply', uhat_apply]
  simp only [zOut, shift, brow]

/-- Σ_k û k · w k at row p. -/
theorem swu_apply (w u : FVec Ideal S512x1024 .f32) (inv : FVec Ideal S1x1 .f32) (p : Fin 512) :
    k1_pay6 (F := Ideal) w u inv (ix2 p (0 : Fin 1))
      = dot (uhatMul (inv (ix2 (0 : Fin 1) (0 : Fin 1))) (brow w p) (brow u p)) (brow w p) := by
  unfold k1_pay6
  rw [laneCol (mulf (k1_pay2 w u inv) w) p]
  simp only [mulf_apply, uhat_apply]
  simp only [dot, brow]

/-- The second store from its three columns: pointwise, the log-determinant of inner + t · s and s. -/
theorem logdet_apply (a t s : FVec Ideal S512x1 .f32) (i : S512x1.Idx) :
    k1_pay1 (F := Ideal) a t s i = logDet (a i + t i * s i) (s i) := by
  unfold k1_pay1
  simp only [addf_apply, mulf_apply, subf_apply, tanh_apply, absf_apply, log_apply, broadcast_apply, Ideal.ofBits_def]
  simp only [logDet, posOne]

/-- The second store at row p. -/
theorem ld_apply (w z u : FVec Ideal S512x1024 .f32) (b : FVec Ideal S512x1 .f32) (inv : FVec Ideal S1x1 .f32) (p : Fin 512) :
    k1_pay1 (F := Ideal) (k1_pay3 w z b) (k1_pay4 w z b) (k1_pay6 w u inv) (ix2 p (0 : Fin 1))
      = ldFused (uhatMul (inv (ix2 (0 : Fin 1) (0 : Fin 1))) (brow w p) (brow u p)) (brow w p) (brow z p) (b (ix2 p (0 : Fin 1))) := by
  rw [logdet_apply, inner_apply, tanh_apply', swu_apply]
  rfl

end Cert.KernelIdeal.PlanarBody

end
-- ==== Proof.PlanarRegion.lean ====
/-
  The second region's two output arrays after its sixteen grid points. Point t works on rows 512·t … 512·t + 511:
  its blocks of the three matrices and of the column b are those rows of the arrays as the region finds them, the
  1 × 1 block is the whole 1 × 1 array, and what it writes back is the planar-flow map of those rows. The sixteen
  blocks tile the arrays (row r lies in block r / 512), so each array ends as one function of the arrays found.
-/
import proofs.«157534_j61649960567178_2_alg».proof.Proof.Gen.KernelIdeal.Frame
import proofs.«157534_j61649960567178_2_alg».proof.Proof.PlanarBody
import Idealize.ShloMosaic.Lib.Pipeline.Value

set_option maxRecDepth 16384

noncomputable section

namespace Cert.KernelIdeal.PlanarRegion

open Cert.KernelIdeal Cert.KernelIdeal.Gen Idealize.ShloMosaic Idealize.ShloMosaic.TcCoe Idealize.ShloMosaic.ValueIdx
open Idealize.SL.Sem Cert.Planar Cert.KernelIdeal.PlanarBody
open Idealize.ShloMosaic.Pipeline (Dat Cfg Window)

/-- The vector b as the region finds it: a column, read as a vector. -/
def colVec (x : S8192x1.Idx → EReal) : SV.Idx → EReal := fun j => x (ix2 (n0 := 8192) (j 0) (0 : Fin 1))

/-- Row 512·t + p of the arrays, for a point t < 16 and a row p of its block. -/
def rowAt (t : ℕ) (ht : t < 16) (p : Fin 512) : Fin 8192 := ⟨512 * t + p.val, by omega⟩

/-! ## One point, over plain blocks -/

section Point

variable (xz xw xu : FVec Ideal S512x1024 .f32) (xb : FVec Ideal S512x1 .f32) (xi : FVec Ideal S1x1 .f32)
  (Z W U : SM.Idx → EReal) (B : S8192x1.Idx → EReal) (cinv : EReal) (t : ℕ) (ht : t < 16)

theorem brow_eq (x : FVec Ideal S512x1024 .f32) (X : SM.Idx → EReal)
    (h : ∀ (p : Fin 512) (k : Fin 1024), x (ix2 p k) = X (ix2 (rowAt t ht p) k)) (p : Fin 512) :
    brow x p = row X (rowAt t ht p) := funext fun k => h p k

/-- The first store at an entry of the block is the first result at the entry's row and column. -/
theorem point_z
    (hz : ∀ (p : Fin 512) (k : Fin 1024), xz (ix2 p k) = Z (ix2 (rowAt t ht p) k))
    (hw : ∀ (p : Fin 512) (k : Fin 1024), xw (ix2 p k) = W (ix2 (rowAt t ht p) k))
    (hu : ∀ (p : Fin 512) (k : Fin 1024), xu (ix2 p k) = U (ix2 (rowAt t ht p) k))
    (hb : ∀ p : Fin 512, xb (ix2 p (0 : Fin 1)) = B (ix2 (rowAt t ht p) (0 : Fin 1)))
    (hi : xi (ix2 (0 : Fin 1) (0 : Fin 1)) = cinv) (y : S512x1024.Idx) :
    k1_pay5 (F := Ideal) xw xz xu xb xi y = kerZ cinv Z W U (colVec B) (rowAt t ht (y 0)) (y 1) := by
  obtain ⟨p, k, rfl⟩ : ∃ (p : Fin 512) (k : Fin 1024), y = ix2 p k := ⟨y 0, y 1, eq_ix2 y⟩
  rw [znew_apply, hi, hb, brow_eq t ht xz Z hz, brow_eq t ht xw W hw, brow_eq t ht xu U hu]
  rfl

/-- The second store at a row of the block is the second result at that row. -/
theorem point_ld
    (hz : ∀ (p : Fin 512) (k : Fin 1024), xz (ix2 p k) = Z (ix2 (rowAt t ht p) k))
    (hw : ∀ (p : Fin 512) (k : Fin 1024), xw (ix2 p k) = W (ix2 (rowAt t ht p) k))
    (hu : ∀ (p : Fin 512) (k : Fin 1024), xu (ix2 p k) = U (ix2 (rowAt t ht p) k))
    (hb : ∀ p : Fin 512, xb (ix2 p (0 : Fin 1)) = B (ix2 (rowAt t ht p) (0 : Fin 1)))
    (hi : xi (ix2 (0 : Fin 1) (0 : Fin 1)) = cinv) (y : S512x1.Idx) :
    k1_pay1 (F := Ideal) (k1_pay3 xw xz xb) (k1_pay4 xw xz xb) (k1_pay6 xw xu xi) y
      = kerLd cinv Z W U (colVec B) (rowAt t ht (y 0)) := by
  obtain ⟨p, q, rfl⟩ : ∃ (p : Fin 512) (q : Fin 1), y = ix2 p q := ⟨y 0, y 1, eq_ix2 y⟩
  obtain rfl : q = 0 := Fin.ext (by omega)
  rw [ld_apply, hi, hb, brow_eq t ht xz Z hz, brow_eq t ht xw W hw, brow_eq t ht xu U hu]
  rfl

end Point

/-! ## The grid -/

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the sixteen points: the row blocks sit at block (t, 0), the 1 × 1 block at (0, 0). -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0)
    ∧ (win1_6.index t (0 : Fin 2) = t.val ∧ win1_6.index t (1 : Fin 2) = 0) :=
  (by decide +kernel : ∀ t : Fin grid1.N, _)

theorem tlt (t : Fin cfg1.N) : t.val < 16 := lt_of_lt_of_eq t.isLt (show cfg1.N = 16 from N_1)

/-- The two results as functions of the arrays the region finds. -/
def zArr (c : Dev nD) : S8192x1024.Idx → EReal :=
  kerZArr (V c main_v7 (ix2 (0 : Fin 1) (0 : Fin 1))) (V c main_arg0) (V c main_arg1) (V c main_arg2) (colVec (V c main_v8))
def ldArr (c : Dev nD) : S8192x1.Idx → EReal :=
  fun i => kerLd (V c main_v7 (ix2 (0 : Fin 1) (0 : Fin 1))) (V c main_arg0) (V c main_arg1) (V c main_arg2) (colVec (V c main_v8)) (i 0)

/-! ## The blocks read off the arrays -/

theorem blk0 (c : Dev nD) (t : Fin cfg1.N) (p : Fin 512) (k : Fin 1024) :
    iblk1 V c 0 t (ix2 p k) = V c main_arg0 (ix2 (rowAt t.val (tlt t) p) k) := by
  obtain ⟨⟨e0, e1⟩, -⟩ := idx_facts t
  show V c main_arg0 (((cfg1.win 0).blk t).view.emb (ix2 p k)) = _
  refine congrArg (V c main_arg0) (funext fun a => Fin.ext ?_)
  match a with
  | ⟨0, _⟩ => show win1_0.index t (0 : Fin 2) * 512 + 1 * p.val = 512 * t.val + p.val; rw [e0]; omega
  | ⟨1, _⟩ => show win1_0.index t (1 : Fin 2) * 1024 + 1 * k.val = k.val; rw [e1]; omega

theorem blk1 (c : Dev nD) (t : Fin cfg1.N) (p : Fin 512) (k : Fin 1024) :
    iblk1 V c 1 t (ix2 p k) = V c main_arg1 (ix2 (rowAt t.val (tlt t) p) k) := by
  obtain ⟨-, ⟨e0, e1⟩, -⟩ := idx_facts t
  show V c main_arg1 (((cfg1.win 1).blk t).view.emb (ix2 p k)) = _
  refine congrArg (V c main_arg1) (funext fun a => Fin.ext ?_)
  match a with
  | ⟨0, _⟩ => show win1_1.index t (0 : Fin 2) * 512 + 1 * p.val = 512 * t.val + p.val; rw [e0]; omega
  | ⟨1, _⟩ => show win1_1.index t (1 : Fin 2) * 1024 + 1 * k.val = k.val; rw [e1]; omega

theorem blk2 (c : Dev nD) (t : Fin cfg1.N) (p : Fin 512) (k : Fin 1024) :
    iblk1 V c 2 t (ix2 p k) = V c main_arg2 (ix2 (rowAt t.val (tlt t) p) k) := by
  obtain ⟨-, -, ⟨e0, e1⟩, -⟩ := idx_facts t
  show V c main_arg2 (((cfg1.win 2).blk t).view.emb (ix2 p k)) = _
  refine congrArg (V c main_arg2) (funext fun a => Fin.ext ?_)
  match a with
  | ⟨0, _⟩ => show win1_2.index t (0 : Fin 2) * 512 + 1 * p.val = 512 * t.val + p.val; rw [e0]; omega
  | ⟨1, _⟩ => show win1_2.index t (1 : Fin 2) * 1024 + 1 * k.val = k.val; rw [e1]; omega

theorem blk3 (c : Dev nD) (t : Fin cfg1.N) (p : Fin 512) :
    iblk1 V c 3 t (ix2 p (0 : Fin 1)) = V c main_v8 (ix2 (rowAt t.val (tlt t) p) (0 : Fin 1)) := by
  obtain ⟨-, -, -, ⟨e0, e1⟩, -⟩ := idx_facts t
  show V c main_v8 (((cfg1.win 3).blk t).view.emb (ix2 p (0 : Fin 1))) = _
  refine congrArg (V c main_v8) (funext fun a => Fin.ext ?_)
  match a with
  | ⟨0, _⟩ => show win1_3.index t (0 : Fin 2) * 512 + 1 * p.val = 512 * t.val + p.val; rw [e0]; omega
  | ⟨1, _⟩ => show win1_3.index t (1 : Fin 2) * 1 + 1 * 0 = 0; rw [e1]

theorem blk4 (c : Dev nD) (t : Fin cfg1.N) :
    iblk1 V c 4 t (ix2 (0 : Fin 1) (0 : Fin 1)) = V c main_v7 (ix2 (0 : Fin 1) (0 : Fin 1)) := by
  obtain ⟨-, -, -, -, ⟨e0, e1⟩, -⟩ := idx_facts t
  show V c main_v7 (((cfg1.win 4).blk t).view.emb (ix2 (0 : Fin 1) (0 : Fin 1))) = _
  refine congrArg (V c main_v7) (funext fun a => Fin.ext ?_)
  match a with
  | ⟨0, _⟩ => show win1_4.index t (0 : Fin 2) * 1 + 1 * 0 = 0; rw [e0]
  | ⟨1, _⟩ => show win1_4.index t (1 : Fin 2) * 1 + 1 * 0 = 0; rw [e1]

/-! ## What each point writes back -/

theorem flushed5_eq (c : Dev nD) (t : Fin cfg1.N) :
    (dat1 V c).flushed 5 t = ((cfg1.win 5).blk t).view.read (Elt Ideal) (zArr V c) := by
  show (cfg1.win 5).cut (grid1.coords t) ((dat1 V c).after 5 t) = _
  rw [after1_5]
  unfold out1_5
  rw [View.canon_unit_zero hz0]
  simp only [View.ld_unit_zero (S := S512x1024) hz0, View.ld_unit_zero (S := S512x1) hz0, View.ld_unit_zero (S := S1x1) hz0]
  obtain ⟨-, -, -, -, -, ⟨e0, e1⟩, -⟩ := idx_facts t
  funext j
  show k1_pay5 (F := Ideal) (iblk1 V c 1 t) (iblk1 V c 0 t) (iblk1 V c 2 t) (iblk1 V c 3 t) (iblk1 V c 4 t) j
    = zArr V c (((cfg1.win 5).blk t).view.emb j)
  refine (point_z (iblk1 V c 0 t) (iblk1 V c 1 t) (iblk1 V c 2 t) (iblk1 V c 3 t) (iblk1 V c 4 t)
    (V c main_arg0) (V c main_arg1) (V c main_arg2) (V c main_v8) (V c main_v7 (ix2 (0 : Fin 1) (0 : Fin 1))) t.val (tlt t)
    (blk0 V c t) (blk1 V c t) (blk2 V c t) (blk3 V c t) (blk4 V c t) j).trans ?_
  show zArr V c (ix2 (rowAt t.val (tlt t) (j 0)) (j 1)) = _
  refine congrArg (zArr V c) (funext fun a => Fin.ext ?_)
  match a with
  | ⟨0, _⟩ => show 512 * t.val + (j 0).val = win1_5.index t (0 : Fin 2) * 512 + 1 * (j 0).val; rw [e0]; omega
  | ⟨1, _⟩ => show (j 1).val = win1_5.index t (1 : Fin 2) * 1024 + 1 * (j 1).val; rw [e1]; omega

theorem flushed6_eq (c : Dev nD) (t : Fin cfg1.N) :
    (dat1 V c).flushed 6 t = ((cfg1.win 6).blk t).view.read (Elt Ideal) (ldArr V c) := by
  show (cfg1.win 6).cut (grid1.coords t) ((dat1 V c).after 6 t) = _
  rw [after1_6]
  unfold out1_6
  rw [View.canon_unit_zero hz0]
  simp only [View.ld_unit_zero (S := S512x1024) hz0, View.ld_unit_zero (S := S512x1) hz0, View.ld_unit_zero (S := S1x1) hz0]
  obtain ⟨-, -, -, -, -, -, ⟨e0, e1⟩⟩ := idx_facts t
  funext j
  show k1_pay1 (F := Ideal) (k1_pay3 (iblk1 V c 1 t) (iblk1 V c 0 t) (iblk1 V c 3 t)) (k1_pay4 (iblk1 V c 1 t) (iblk1 V c 0 t) (iblk1 V c 3 t))
      (k1_pay6 (iblk1 V c 1 t) (iblk1 V c 2 t) (iblk1 V c 4 t)) j
    = ldArr V c (((cfg1.win 6).blk t).view.emb j)
  refine (point_ld (iblk1 V c 0 t) (iblk1 V c 1 t) (iblk1 V c 2 t) (iblk1 V c 3 t) (iblk1 V c 4 t)
    (V c main_arg0) (V c main_arg1) (V c main_arg2) (V c main_v8) (V c main_v7 (ix2 (0 : Fin 1) (0 : Fin 1))) t.val (tlt t)
    (blk0 V c t) (blk1 V c t) (blk2 V c t) (blk3 V c t) (blk4 V c t) j).trans ?_
  show kerLd _ _ _ _ _ (rowAt t.val (tlt t) (j 0)) = kerLd _ _ _ _ _ ((((cfg1.win 6).blk t).view.emb j) 0)
  refine congrArg (kerLd _ _ _ _ _) (Fin.ext ?_)
  show 512 * t.val + (j 0).val = win1_6.index t (0 : Fin 2) * 512 + 1 * (j 0).val
  rw [e0]; omega

/-! ## The cover -/

theorem mem_blk5 (t : Fin cfg1.N) (i : S8192x1024.Idx) :
    i ∈ ((cfg1.win 5).blk t).view.set ↔ ∀ a : Fin 2, win1_5.index t a * S512x1024.size a ≤ (i a).val ∧ (i a).val < win1_5.index t a * S512x1024.size a + S512x1024.size a := by
  show i ∈ ((View.whole main_v9_0).slice (win1_5.rect t)).set ↔ _
  rw [View.set_slice_whole, Rect.mem_set_unit]
  exact Iff.rfl

theorem mem_blk6 (t : Fin cfg1.N) (i : S8192x1.Idx) :
    i ∈ ((cfg1.win 6).blk t).view.set ↔ ∀ a : Fin 2, win1_6.index t a * S512x1.size a ≤ (i a).val ∧ (i a).val < win1_6.index t a * S512x1.size a + S512x1.size a := by
  show i ∈ ((View.whole main_v9_1).slice (win1_6.rect t)).set ↔ _
  rw [View.set_slice_whole, Rect.mem_set_unit]
  exact Iff.rfl

theorem cover5 (i : S8192x1024.Idx) : ∃ t : Fin cfg1.N, (cfg1.win 5).flush t = true ∧ i ∈ ((cfg1.win 5).blk t).view.set := by
  have hi0 : (i 0).val < 8192 := (i 0).isLt
  have hi1 : (i 1).val < 1024 := (i 1).isLt
  have hN : cfg1.N = 16 := N_1
  let t : Fin cfg1.N := ⟨(i 0).val / 512, by rw [hN]; omega⟩
  obtain ⟨-, -, -, -, -, ⟨e0, e1⟩, -⟩ := idx_facts t
  have et : t.val = (i 0).val / 512 := rfl
  refine ⟨t, flush1_5 t, ?_⟩
  rw [mem_blk5]
  intro a
  match a with
  | ⟨0, _⟩ => show win1_5.index t (0 : Fin 2) * 512 ≤ (i 0).val ∧ (i 0).val < win1_5.index t (0 : Fin 2) * 512 + 512; rw [e0, et]; omega
  | ⟨1, _⟩ => show win1_5.index t (1 : Fin 2) * 1024 ≤ (i 1).val ∧ (i 1).val < win1_5.index t (1 : Fin 2) * 1024 + 1024; rw [e1]; omega

theorem cover6 (i : S8192x1.Idx) : ∃ t : Fin cfg1.N, (cfg1.win 6).flush t = true ∧ i ∈ ((cfg1.win 6).blk t).view.set := by
  have hi0 : (i 0).val < 8192 := (i 0).isLt
  have hi1 : (i 1).val < 1 := (i 1).isLt
  have hN : cfg1.N = 16 := N_1
  let t : Fin cfg1.N := ⟨(i 0).val / 512, by rw [hN]; omega⟩
  obtain ⟨-, -, -, -, -, -, ⟨e0, e1⟩⟩ := idx_facts t
  have et : t.val = (i 0).val / 512 := rfl
  refine ⟨t, flush1_6 t, ?_⟩
  rw [mem_blk6]
  intro a
  match a with
  | ⟨0, _⟩ => show win1_6.index t (0 : Fin 2) * 512 ≤ (i 0).val ∧ (i 0).val < win1_6.index t (0 : Fin 2) * 512 + 512; rw [e0, et]; omega
  | ⟨1, _⟩ => show win1_6.index t (1 : Fin 2) * 1 ≤ (i 1).val ∧ (i 1).val < win1_6.index t (1 : Fin 2) * 1 + 1; rw [e1]; omega

/-! ## The arrays after the region -/

theorem final5 (c : Dev nD) : (dat1 V c).arrAt 5 cfg1.N = zArr V c :=
  (dat1 V c).arrAt_eq_of_cover 5 (zArr V c) (fun t _ => flushed5_eq V c t) cover5

theorem final6 (c : Dev nD) : (dat1 V c).arrAt 6 cfg1.N = ldArr V c :=
  (dat1 V c).arrAt_eq_of_cover 6 (ldArr V c) (fun t _ => flushed6_eq V c t) cover6

end Cert.KernelIdeal.PlanarRegion

end
-- ==== Proof.SumsqRegion.lean ====
/-
  The first of the program's two pipelined regions, and the host operations between the two, read as numbers.

  The region walks the matrix w (8192 × 1024) in eight tiles of 1024 rows, four tiles to a half. Each grid point
  multiplies its tile by itself entry by entry, sums every row over its 1024 columns, sums those 1024 row sums, and adds
  the resulting number to every cell of an 8 × 128 accumulator block; at the first tile of a half the block is first
  filled with zeros. The block is written to row-block h of a 2 × 8 × 128 array after the half's last tile. So every
  cell of row-block h ends holding (((0 + s₄ₕ) + s₄ₕ₊₁) + s₄ₕ₊₂) + s₄ₕ₊₃, where s_t is tile t's sum of squares
  Σ_p Σ_k w(1024·t + p, k)². The first statement proved here is this at the two cells (0,0,0) and (1,0,0).

  The host then takes those two cells, adds them, takes the reciprocal square root and hands it on as a 1 × 1 array;
  it reshapes the vector b to a column; it touches none of the three matrices. The second statement says what the
  second region therefore finds.

  The road: what one grid point leaves in the block (two cases: first tile of a half, later tile); that value at a
  cell over the extended reals (two nested finite sums, the second over a column of row sums); the tile a point reads
  (block index times block size plus the coordinate inside the block); the running sum after each point, by
  induction on the point; the array the two write-backs build; the host's slices and reshapes read at an index.
-/
import proofs.«157534_j61649960567178_2_alg».proof.Proof.Gen.KernelIdeal.Frame
import proofs.«157534_j61649960567178_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run
import Idealize.ShloMosaic.Lib.Tactic

noncomputable section

open Idealize.ShloMosaic Idealize.ShloMosaic.TcCoe Idealize.ShloMosaic.ValueIdx Idealize.SL.Sem
open Idealize.ShloMosaic.Pipeline (Dat)
open scoped BigOperators

namespace Cert.KernelIdeal.SumsqValue

open Cert.KernelIdeal Cert.KernelIdeal.Gen

/-! ## What one grid point leaves in the accumulator block -/

section Pieces

variable {F : FTy → Type} [FloatOps F]

theorem zeroOff3 : (![0, 0, 0] : Fin 3 → Nat) = fun _ => 0 := funext fun a => by fin_cases a <;> rfl
theorem zeroOff2 : (![0, 0] : Fin 2 → Nat) = fun _ => 0 := funext fun a => by fin_cases a <;> rfl

/-- A later step of a half: the block holds `xo`; the body stores `xo` plus the tile's sum of squares, the tile read
    twice from the same buffer. -/
theorem out_B (c : Dev nD) (i : grid0.Coords) (a1 : Memref sig .tc .vmem S1024x1024 .f32) (h1 : a1.IsWhole)
    (a2 : Memref sig .tc .vmem S1x8x128 .f32) (h2 : a2.IsWhole) (hc : ¬cond0_0 i)
    (x : Vec F S1024x1024 .f32) (xo : Vec F S1x8x128 .f32) :
    out0_B_1 c i a1 h1 a2 h2 hc x xo = k0_pay2 x x xo := by
  unfold out0_B_1
  rw [View.read_writes_eq_canon _ _ _ (cover0_B_1 c i a1 h1 a2 h2 hc x xo)]
  unfold kernelRun0_B
  dsimp only
  rw [View.canon_unit_zero zeroOff3]
  simp only [View.readAt_eq_ld, h1.read_unread, h2.read_unread, View.ld_unit_zero (S := S1024x1024) zeroOff2,
    View.ld_unit_zero (S := S1x8x128) zeroOff3]

/-- The first step of a half: the body first stores zeros over the whole block, loads them back, and stores them plus
    the tile's sum of squares. -/
theorem out_A (c : Dev nD) (i : grid0.Coords) (a1 : Memref sig .tc .vmem S1024x1024 .f32) (h1 : a1.IsWhole)
    (a2 : Memref sig .tc .vmem S1x8x128 .f32) (h2 : a2.IsWhole) (hc : cond0_0 i)
    (x : Vec F S1024x1024 .f32) :
    out0_A_1 c i a1 h1 a2 h2 hc x = k0_pay2 x x (k0_pay1 (F := F)) := by
  unfold out0_A_1
  rw [View.read_writes_eq_canon _ _ _ (cover0_A_1 c i a1 h1 a2 h2 hc x)]
  unfold kernelRun0_A
  dsimp only
  sl_unfold_words
  rw [View.canon_cons_unit_zero (S := S1x8x128) zeroOff3, View.readCov_unit_zero (S := S1x8x128) _ zeroOff3]
  simp only [View.readAt_eq_ld, h1.read_unread, View.ld_unit_zero (S := S1024x1024) zeroOff2]

end Pieces

/-! ## The stored value at a cell, over the extended reals -/

/-- The row index `p` with the column `k` put back is the cell (p, k). -/
theorem lift_col (p : Fin 1024) (k : Fin (S1024x1024.size 1)) :
    reduces_S1024x1024_S1024.lift (ix1 p) k = ix2 p (⟨k.val, k.isLt⟩ : Fin 1024) := by
  funext c; apply Fin.ext
  fin_cases c <;> rfl

/-- The one index of the length-one vector with the row `p` put back is the cell (p, 0) of the column. -/
theorem lift_row (p : Fin (S1024x1.size 0)) :
    reduces_S1024x1_S1.lift (ix1 (0 : Fin 1)) p = ix2 (⟨p.val, p.isLt⟩ : Fin 1024) (0 : Fin 1) := by
  funext c; apply Fin.ext
  fin_cases c <;> rfl

/-- The body's stored value at any cell of the block: what the block held there plus the sum, over the tile's rows, of
    each row's sum of squares — the same number at every cell (the scalar is broadcast over the block). -/
theorem pay2_apply (x : Vec Ideal S1024x1024 .f32) (v : Vec Ideal S1x8x128 .f32) (a : Fin 1) (b : Fin 8) (l : Fin 128) :
    k0_pay2 (F := Ideal) x x v (ix3 a b l)
      = v (ix3 a b l) + ∑ p : Fin 1024, ∑ k : Fin 1024, x (ix2 p k) * x (ix2 p k) := by
  unfold k0_pay2
  dsimp only
  show shapeCast S1x8x128 v shapeCasts_S1x8x128_S1x8x128 (ix3 a b l) + _ = _
  refine congrArg₂ (· + ·) (congrFun (shapeCast_self v _) _) ?_
  refine (broadcastTo_apply _ broadcasts_S1x1x1_S1x8x128 (ix3 a b l) (ix3 (0 : Fin 1) (0 : Fin 1) (0 : Fin 1))
    (fun d => match d with | ⟨0, _⟩ => rfl | ⟨1, _⟩ => rfl | ⟨2, _⟩ => rfl)).trans ?_
  refine (shapeCast_apply _ shapeCasts_S1x1_S1x1x1 (ix3 (0 : Fin 1) (0 : Fin 1) (0 : Fin 1)) (ix2 (0 : Fin 1) (0 : Fin 1))
    (by rw [Shape.rowMajor_val_two, Shape.rowMajor_val_three]; rfl)).trans ?_
  refine (shapeCast_apply _ shapeCasts_S1_S1x1 (ix2 (0 : Fin 1) (0 : Fin 1)) (ix1 (0 : Fin 1))
    (by rw [Shape.rowMajor_val_one, Shape.rowMajor_val_two]; rfl)).trans ?_
  refine (Ideal.multiReduction_add_single _ 0x00000000#32 reduces_S1024x1_S1 (.inl rfl) rfl (ix1 (0 : Fin 1))).trans ?_
  refine Finset.sum_congr rfl fun p _ => ?_
  rw [lift_row p]
  refine (shapeCast_apply _ shapeCasts_S1024_S1024x1 (ix2 (⟨p.val, p.isLt⟩ : Fin 1024) (0 : Fin 1)) (ix1 (⟨p.val, p.isLt⟩ : Fin 1024))
    (by rw [Shape.rowMajor_val_one, Shape.rowMajor_val_two]; show p.val = p.val * 1 + 0; omega)).trans ?_
  refine (Ideal.multiReduction_add_single _ 0x00000000#32 reduces_S1024x1024_S1024 (.inl rfl) rfl (ix1 (⟨p.val, p.isLt⟩ : Fin 1024))).trans ?_
  refine Finset.sum_congr rfl fun k _ => ?_
  rw [lift_col _ k]
  rfl

/-! ## The tile a grid point reads, and the running sum after each point -/

/-- A grid point as a tile number. -/
def tileOf (t : Fin cfg0.N) : Fin 8 := ⟨t.val, lt_of_lt_of_eq t.isLt (show cfg0.N = 8 from N_0)⟩

/-- The first window's block index at point `t` is (t, 0): decided over the grid's eight points. -/
theorem blockIndex : ∀ t : Fin cfg0.N, win0_0.index t 0 = t.val ∧ win0_0.index t 1 = 0 :=
  (by decide +kernel : ∀ t : Fin grid0.N, win0_0.index t 0 = t.val ∧ win0_0.index t 1 = 0)

/-- The block point `t` reads is tile `t` of the matrix: its cell (p, k) is the matrix's cell (1024·t + p, k) — a block's
    coordinate is the block index times the block size plus the coordinate inside the block. -/
theorem block_apply (V : (c : Dev nD) → (b : Ref sig .tc) → Buf (Elt Ideal) ((c : Thread nD τ).loc b)) (c : Dev nD)
    (t : Fin cfg0.N) (p k : Fin 1024) :
    (iblk0 (F := Ideal) V c 0 t : Vec Ideal S1024x1024 .f32) (ix2 p k)
      = V c main_arg1 (ix2 (Cert.Planar.tileRow (tileOf t) p) k) := by
  have hi := blockIndex t
  unfold iblk0
  rw [View.read_apply]
  show V c main_arg1 _ = V c main_arg1 _
  refine congrArg (V c main_arg1) (funext fun a => Fin.ext ?_)
  match a with
  | ⟨0, _⟩ => show win0_0.index t 0 * 1024 + 1 * p.val = 1024 * t.val + p.val; rw [hi.1]; omega
  | ⟨1, _⟩ => show win0_0.index t 1 * 1024 + 1 * k.val = k.val; rw [hi.2]; omega

/-- A block that is tile `t` of `w` has tile `t`'s sum of squares. -/
theorem sumsq_of_tile (x : Vec Ideal S1024x1024 .f32) (w : Cert.Planar.SM.Idx → EReal) (t : Fin 8)
    (hx : ∀ p k : Fin 1024, x (ix2 p k) = w (ix2 (Cert.Planar.tileRow t p) k)) :
    (∑ p : Fin 1024, ∑ k : Fin 1024, x (ix2 p k) * x (ix2 p k)) = Cert.Planar.tileSumsq w t := by
  unfold Cert.Planar.tileSumsq
  exact Finset.sum_congr rfl fun p _ => Finset.sum_congr rfl fun k _ => by rw [hx p k]

/-- First step of a half, at a cell: zero plus the tile's sum of squares. -/
theorem first_step (c : Dev nD) (i : grid0.Coords) (a1 : Memref sig .tc .vmem S1024x1024 .f32) (h1 : a1.IsWhole)
    (a2 : Memref sig .tc .vmem S1x8x128 .f32) (h2 : a2.IsWhole) (hc : cond0_0 i)
    (x : Vec Ideal S1024x1024 .f32) (w : Cert.Planar.SM.Idx → EReal) (t : Fin 8)
    (hx : ∀ p k : Fin 1024, x (ix2 p k) = w (ix2 (Cert.Planar.tileRow t p) k)) (a : Fin 1) (b : Fin 8) (l : Fin 128) :
    out0_A_1 (F := Ideal) c i a1 h1 a2 h2 hc x (ix3 a b l) = 0 + Cert.Planar.tileSumsq w t := by
  rw [out_A (F := Ideal) c i a1 h1 a2 h2 hc x, pay2_apply x _ a b l, sumsq_of_tile x w t hx]
  refine congrArg (· + Cert.Planar.tileSumsq w t) ?_
  show Ideal.ofBits .f32 0x00000000#32 = 0
  exact Ideal.ofBits_zero_f32

/-- A later step, at a cell: what the block held (the same number `s` at every cell) plus the tile's sum of squares. -/
theorem later_step (c : Dev nD) (i : grid0.Coords) (a1 : Memref sig .tc .vmem S1024x1024 .f32) (h1 : a1.IsWhole)
    (a2 : Memref sig .tc .vmem S1x8x128 .f32) (h2 : a2.IsWhole) (hc : ¬cond0_0 i)
    (x : Vec Ideal S1024x1024 .f32) (xo : Vec Ideal S1x8x128 .f32) (w : Cert.Planar.SM.Idx → EReal) (t : Fin 8) (s : EReal)
    (hx : ∀ p k : Fin 1024, x (ix2 p k) = w (ix2 (Cert.Planar.tileRow t p) k))
    (hxo : ∀ (a : Fin 1) (b : Fin 8) (l : Fin 128), xo (ix3 a b l) = s) (a : Fin 1) (b : Fin 8) (l : Fin 128) :
    out0_B_1 (F := Ideal) c i a1 h1 a2 h2 hc x xo (ix3 a b l) = s + Cert.Planar.tileSumsq w t := by
  rw [out_B (F := Ideal) c i a1 h1 a2 h2 hc x xo, pay2_apply x xo a b l, sumsq_of_tile x w t hx, hxo a b l]

/-- Tile `n`'s sum of squares, as a function of every natural (zero past the eighth tile, never used). -/
def tileAt (w : Cert.Planar.SM.Idx → EReal) (n : ℕ) : EReal :=
  if h : n < 8 then Cert.Planar.tileSumsq w ⟨n, h⟩ else 0

/-- The running sum after point `n`: restarted from zero at the first step of each half. -/
def running (w : Cert.Planar.SM.Idx → EReal) : ℕ → EReal
  | 0 => 0 + tileAt w 0
  | n + 1 => if (n + 1) % 4 = 0 then 0 + tileAt w (n + 1) else running w n + tileAt w (n + 1)

theorem tileAt_tileOf (w : Cert.Planar.SM.Idx → EReal) (t : Fin cfg0.N) :
    Cert.Planar.tileSumsq w (tileOf t) = tileAt w t.val := by
  unfold tileAt
  rw [dif_pos (show t.val < 8 from (tileOf t).isLt)]
  rfl

/-- After point `n` every cell of the accumulator block holds the running sum. -/
theorem outsAt_apply (V : (c : Dev nD) → (b : Ref sig .tc) → Buf (Elt Ideal) ((c : Thread nD τ).loc b)) (c : Dev nD) :
    ∀ (n : ℕ) (h : n < cfg0.N) (a : Fin 1) (b : Fin 8) (l : Fin 128),
      outsAt0 (F := Ideal) V c n h (ix3 a b l) = running (V c main_arg1) n
  | 0, h, a, b, l => by
    rw [outsAt0_A V c ⟨0, h⟩ rfl]
    refine (first_step c (grid0.coords ⟨0, h⟩) (ms0_0 ⟨0, h⟩) (hs0_0 ⟨0, h⟩) (ms0_1 ⟨0, h⟩) (hs0_1 ⟨0, h⟩)
      ((hcond0_0 ⟨0, h⟩).mpr rfl) (iblk0 V c 0 ⟨0, h⟩) (V c main_arg1) (tileOf ⟨0, h⟩)
      (fun p k => block_apply V c ⟨0, h⟩ p k) a b l).trans ?_
    rw [tileAt_tileOf]
    rfl
  | n + 1, h, a, b, l => by
    by_cases h0 : (n + 1) % 4 = 0
    · rw [outsAt0_A V c ⟨n + 1, h⟩ h0]
      refine (first_step c (grid0.coords ⟨n + 1, h⟩) (ms0_0 ⟨n + 1, h⟩) (hs0_0 ⟨n + 1, h⟩) (ms0_1 ⟨n + 1, h⟩) (hs0_1 ⟨n + 1, h⟩)
        ((hcond0_0 ⟨n + 1, h⟩).mpr h0) (iblk0 V c 0 ⟨n + 1, h⟩) (V c main_arg1) (tileOf ⟨n + 1, h⟩)
        (fun p k => block_apply V c ⟨n + 1, h⟩ p k) a b l).trans ?_
      rw [tileAt_tileOf]
      show _ = if (n + 1) % 4 = 0 then _ else _
      rw [if_pos h0]
    · rw [outsAt0_B V c ⟨n + 1, h⟩ h0]
      refine (later_step c (grid0.coords ⟨n + 1, h⟩) (ms0_0 ⟨n + 1, h⟩) (hs0_0 ⟨n + 1, h⟩) (ms0_1 ⟨n + 1, h⟩) (hs0_1 ⟨n + 1, h⟩)
        (fun hh => h0 ((hcond0_0 ⟨n + 1, h⟩).mp hh)) (iblk0 V c 0 ⟨n + 1, h⟩)
        (outsAt0 V c n (Nat.lt_of_succ_lt h)) (V c main_arg1) (tileOf ⟨n + 1, h⟩) (running (V c main_arg1) n)
        (fun p k => block_apply V c ⟨n + 1, h⟩ p k)
        (fun a' b' l' => outsAt_apply V c n (Nat.lt_of_succ_lt h) a' b' l') a b l).trans ?_
      rw [tileAt_tileOf]
      show _ = if (n + 1) % 4 = 0 then _ else _
      rw [if_neg h0]

/-! ## The output array after the region -/

/-- Every cell of the accumulator block, at any index. -/
theorem outsAt_const (V : (c : Dev nD) → (b : Ref sig .tc) → Buf (Elt Ideal) ((c : Thread nD τ).loc b)) (c : Dev nD)
    (n : ℕ) (h : n < cfg0.N) (j : S1x8x128.Idx) :
    outsAt0 (F := Ideal) V c n h j = running (V c main_arg1) n := by
  rw [eq_ix3 j]
  exact outsAt_apply V c n h (j 0) (j 1) (j 2)

/-- The first half's running sum is complete after point 3, the second's after point 7. -/
theorem running_three (w : Cert.Planar.SM.Idx → EReal) : running w 3 = Cert.Planar.halfSumsq w 0 1 2 3 := by
  unfold Cert.Planar.halfSumsq
  show (if 3 % 4 = 0 then _ else (if 2 % 4 = 0 then _ else (if 1 % 4 = 0 then _ else (0 + tileAt w 0) + tileAt w 1) + tileAt w 2) + tileAt w 3) = _
  rw [if_neg (by decide), if_neg (by decide), if_neg (by decide)]
  rfl

theorem running_seven (w : Cert.Planar.SM.Idx → EReal) : running w 7 = Cert.Planar.halfSumsq w 4 5 6 7 := by
  unfold Cert.Planar.halfSumsq
  show (if 7 % 4 = 0 then _ else (if 6 % 4 = 0 then _ else (if 5 % 4 = 0 then _ else
    (if 4 % 4 = 0 then 0 + tileAt w 4 else _) + tileAt w 5) + tileAt w 6) + tileAt w 7) = _
  rw [if_neg (by decide), if_neg (by decide), if_neg (by decide), if_pos (by decide)]
  rfl

/-- The output array the write-backs build: half `h`'s completed sum at every cell of row-block `h`. -/
def halves (w : Cert.Planar.SM.Idx → EReal) : S2x8x128.Idx → EReal :=
  fun i => if (i 0).val = 0 then running w 3 else running w 7

/-- The output window's block index at point `t` is (t / 4, 0, 0), and no block is cut: decided over the grid. -/
theorem outIndex : ∀ t : Fin cfg0.N, win0_1.index t 0 = t.val / 4 ∧ win0_1.index t 1 = 0 ∧ win0_1.index t 2 = 0 :=
  (by decide +kernel : ∀ t : Fin grid0.N, win0_1.index t 0 = t.val / 4 ∧ win0_1.index t 1 = 0 ∧ win0_1.index t 2 = 0)
theorem outExtent : ∀ t : Fin cfg0.N, win0_1.xsize (grid0.coords t) 0 = 1 ∧ win0_1.xsize (grid0.coords t) 1 = 8
    ∧ win0_1.xsize (grid0.coords t) 2 = 128 :=
  (by decide +kernel : ∀ t : Fin grid0.N, win0_1.xsize (grid0.coords t) 0 = 1 ∧ win0_1.xsize (grid0.coords t) 1 = 8
    ∧ win0_1.xsize (grid0.coords t) 2 = 128)

/-- What a write-back point (the last step of a half) writes is its block of `halves`. -/
theorem flushed_eq (V : (c : Dev nD) → (b : Ref sig .tc) → Buf (Elt Ideal) ((c : Thread nD τ).loc b)) (c : Dev nD)
    (t : Fin cfg0.N) (hf : (cfg0.win 1).flush t = true) :
    (dat0 (F := Ideal) V c).flushed 1 t = ((cfg0.win 1).blk t).view.read (Elt Ideal) (halves (V c main_arg1)) := by
  have hN : t.val < 8 := lt_of_lt_of_eq t.isLt (show cfg0.N = 8 from N_0)
  have h3 : t.val % 4 = 3 := (flush0_1 t).mp hf
  have hi := (outIndex t).1
  have hx := (outExtent t).1
  funext y
  rw [View.read_apply]
  show (dat0 (F := Ideal) V c).after 1 t ((cfg0.win 1).xinj (grid0.coords t) y) = _
  rw [after0_1]
  refine (outsAt_const V c t.val t.isLt _).trans ?_
  have hy : (y 0).val < win0_1.xsize (grid0.coords t) 0 := (y 0).isLt
  have e0 : ((((cfg0.win 1).blk t).view.emb y) 0).val = win0_1.index t 0 * 1 + 1 * (y 0).val := rfl
  unfold halves
  rw [e0, hi]
  rw [hx] at hy
  rcases (by omega : t.val = 3 ∨ t.val = 7) with h | h
  · rw [if_pos (by omega), h]; rfl
  · rw [if_neg (by omega), h]; rfl

/-- A cell of row-block `t / 4` lies in the block point `t` writes back. -/
theorem mem_block (t : Fin cfg0.N) (hh : Fin 2) (b : Fin 8) (l : Fin 128) (hq : t.val / 4 = hh.val) :
    (ix3 hh b l : S2x8x128.Idx) ∈ ((cfg0.win 1).blk t).view.set := by
  have hi := outIndex t
  have hx := outExtent t
  show (ix3 hh b l : S2x8x128.Idx) ∈ ((View.whole main_v0).slice (win0_1.rect t)).set
  rw [View.set_slice_whole, Rect.mem_set_unit]
  intro a
  match a with
  | ⟨0, _⟩ =>
    show win0_1.index t 0 * 1 ≤ hh.val ∧ hh.val < win0_1.index t 0 * 1 + win0_1.xsize (grid0.coords t) 0
    rw [hi.1, hx.1]; omega
  | ⟨1, _⟩ =>
    show win0_1.index t 1 * 8 ≤ b.val ∧ b.val < win0_1.index t 1 * 8 + win0_1.xsize (grid0.coords t) 1
    rw [hi.2.1, hx.2.1]; have := b.isLt; omega
  | ⟨2, _⟩ =>
    show win0_1.index t 2 * 128 ≤ l.val ∧ l.val < win0_1.index t 2 * 128 + win0_1.xsize (grid0.coords t) 2
    rw [hi.2.2, hx.2.2]; have := l.isLt; omega

/-- Region 0's output array after the run, at the two cells the host reads: each half's four tiles accumulated from zero. -/
theorem tiles (V : (c : Dev nD) → (b : Ref sig .tc) → Buf (Elt Ideal) ((c : Thread nD τ).loc b)) (c : Dev nD) :
    (dat0 (F := Ideal) V c).arrAt 1 cfg0.N (ix3 (0 : Fin 2) (0 : Fin 8) (0 : Fin 128)) = Cert.Planar.halfSumsq (V c main_arg1) 0 1 2 3
    ∧ (dat0 (F := Ideal) V c).arrAt 1 cfg0.N (ix3 (1 : Fin 2) (0 : Fin 8) (0 : Fin 128)) = Cert.Planar.halfSumsq (V c main_arg1) 4 5 6 7 := by
  constructor
  · refine ((dat0 (F := Ideal) V c).arrAt_apply_of_mem 1 (halves (V c main_arg1)) (flushed_eq V c) cfg0.N t0_3
      (ix3 (0 : Fin 2) (0 : Fin 8) (0 : Fin 128)) t0_3.isLt ((flush0_1 t0_3).mpr rfl) (mem_block t0_3 0 0 0 rfl)).trans ?_
    exact (if_pos rfl).trans (running_three _)
  · refine ((dat0 (F := Ideal) V c).arrAt_apply_of_mem 1 (halves (V c main_arg1)) (flushed_eq V c) cfg0.N t0_7
      (ix3 (1 : Fin 2) (0 : Fin 8) (0 : Fin 128)) t0_7.isLt ((flush0_1 t0_7).mpr rfl) (mem_block t0_7 1 0 0 rfl)).trans ?_
    exact (if_neg (by decide)).trans (running_seven _)

/-! ## The host operations between the two regions -/

/-- The one index of a rank-0 shape sits at row-major position 0. -/
theorem rowMajor_scalar (j : S_.Idx) : (S_.rowMajor j).val = 0 := by
  have h : (S_.rowMajor j).val < 1 := (S_.rowMajor j).isLt
  omega

/-- The host's scalar chain on the output array `A`: cell (0,0,0) and cell (1,0,0) sliced out, each reshaped to a
    scalar, added, the reciprocal square root taken, the result reshaped to 1 × 1. -/
theorem host_scale (A : Vec Ideal S2x8x128 .f32) (j : S1x1.Idx) :
    shapeCast S1x1 (Host.rsqrt (F := Ideal)
      (addf (shapeCast S_ (extractStridedSlice S1x1x1 ![0, 0, 0] A slices_S2x8x128_S1x1x1_0_0_0) shapeCasts_S1x1x1_S_)
        (shapeCast S_ (extractStridedSlice S1x1x1 ![1, 0, 0] A slices_S2x8x128_S1x1x1_1_0_0) shapeCasts_S1x1x1_S_)
        : FVec Ideal S_ .f32)) shapeCasts_S_S1x1 j
      = Ideal.rsqrt (A (ix3 (0 : Fin 2) (0 : Fin 8) (0 : Fin 128)) + A (ix3 (1 : Fin 2) (0 : Fin 8) (0 : Fin 128))) := by
  have hj0 : (j 0).val < 1 := (j 0).isLt
  have hj1 : (j 1).val < 1 := (j 1).isLt
  refine (shapeCast_apply _ shapeCasts_S_S1x1 j ix0
    (by rw [rowMajor_scalar, Shape.rowMajor_val_two]; show 0 = (j 0).val * 1 + (j 1).val; omega)).trans ?_
  show Ideal.rsqrt (shapeCast S_ _ shapeCasts_S1x1x1_S_ ix0 + shapeCast S_ _ shapeCasts_S1x1x1_S_ ix0) = _
  refine congrArg Ideal.rsqrt (congrArg₂ (· + ·) ?_ ?_)
  · refine (shapeCast_apply _ shapeCasts_S1x1x1_S_ ix0 (ix3 (0 : Fin 1) (0 : Fin 1) (0 : Fin 1))
      (by rw [rowMajor_scalar, Shape.rowMajor_val_three]; rfl)).trans ?_
    exact extractStridedSlice_apply ![0, 0, 0] A slices_S2x8x128_S1x1x1_0_0_0 (ix3 (0 : Fin 1) (0 : Fin 1) (0 : Fin 1))
      (ix3 (0 : Fin 2) (0 : Fin 8) (0 : Fin 128)) (fun a => match a with | ⟨0, _⟩ => rfl | ⟨1, _⟩ => rfl | ⟨2, _⟩ => rfl)
  · refine (shapeCast_apply _ shapeCasts_S1x1x1_S_ ix0 (ix3 (0 : Fin 1) (0 : Fin 1) (0 : Fin 1))
      (by rw [rowMajor_scalar, Shape.rowMajor_val_three]; rfl)).trans ?_
    exact extractStridedSlice_apply ![1, 0, 0] A slices_S2x8x128_S1x1x1_1_0_0 (ix3 (0 : Fin 1) (0 : Fin 1) (0 : Fin 1))
      (ix3 (1 : Fin 2) (0 : Fin 8) (0 : Fin 128)) (fun a => match a with | ⟨0, _⟩ => rfl | ⟨1, _⟩ => rfl | ⟨2, _⟩ => rfl)

section Entry

variable (m : (ℓ : Loc nD τ sig) → Buf (Elt Ideal) ℓ) (ρ : Dev nD → PrngReg) (c : Dev nD)

/-- The scale the second region is handed: the reciprocal square root of the two halves' sums added. -/
theorem entry_scale :
    V2 (F := Ideal) m ρ c main_v7 = fun _ => Ideal.rsqrt (Cert.Planar.kerSumsq (m ((c : Thread nD τ).loc main_arg1))) := by
  have ht := tiles (V0 (F := Ideal) m ρ) c
  have e : W1 (F := Ideal) m ρ c (Proc.devRef .tc main_v0) = (dat0 (V0 (F := Ideal) m ρ) c).arrAt 1 cfg0.N := W1_arr m ρ c 1
  show StableHlo.after hostOps1 (W1 m ρ c) (Proc.devRef .tc main_v7) = _
  after_results
  funext j
  refine (host_scale (W1 (F := Ideal) m ρ c (Proc.devRef .tc main_v0)) j).trans ?_
  exact congrArg Ideal.rsqrt (congrArg₂ (· + ·) ((congrFun e _).trans ht.1) ((congrFun e _).trans ht.2))

/-- The vector b reaches the second region as a column: entry (r, 0) is b r. -/
theorem entry_column (r : Fin 8192) :
    V2 (F := Ideal) m ρ c main_v8 (ix2 r (0 : Fin 1)) = m ((c : Thread nD τ).loc main_arg3) (ix1 r) := by
  show StableHlo.after hostOps1 (W1 m ρ c) (Proc.devRef .tc main_v8) (ix2 r (0 : Fin 1)) = _
  after_results
  refine (shapeCast_apply (W1 (F := Ideal) m ρ c (Proc.devRef .tc main_arg3)) shapeCasts_S8192_S8192x1 (ix2 r (0 : Fin 1)) (ix1 r)
    (by show (S8192.rowMajor (ix1 r)).val = (S8192x1.rowMajor (ix2 r (0 : Fin 1))).val
        rw [Shape.rowMajor_val_one, Shape.rowMajor_val_two]; show r.val = r.val * 1 + 0; omega)).trans ?_
  exact congrFun ((W1_of_ne m ρ c main_arg3 (by decide)).trans rfl) (ix1 r)

/-- No host operation between the regions writes an argument. -/
theorem entry_arg0 : V2 (F := Ideal) m ρ c main_arg0 = m ((c : Thread nD τ).loc main_arg0) :=
  calc W2 m ρ c (Proc.devRef .tc main_arg0)
    _ = W1 m ρ c (Proc.devRef .tc main_arg0) := StableHlo.after_of_forall_not_mem (b := Proc.devRef .tc main_arg0) _ _ (List.forall_iff_forall_mem.mp (by
          simp only [hostOps1, List.Forall, StableHlo.unary_writes, StableHlo.binary_writes, StableHlo.reshape_writes, Finset.mem_singleton]
          repeat' apply And.intro
          all_goals exact StableHlo.devRef_ne_of_ne (by decide)))
    _ = W0 m ρ c (Proc.devRef .tc main_arg0) := W1_of_ne m ρ c main_arg0 (by decide)
    _ = m ((c : Thread nD τ).loc main_arg0) := rfl

theorem entry_arg1 : V2 (F := Ideal) m ρ c main_arg1 = m ((c : Thread nD τ).loc main_arg1) :=
  calc W2 m ρ c (Proc.devRef .tc main_arg1)
    _ = W1 m ρ c (Proc.devRef .tc main_arg1) := StableHlo.after_of_forall_not_mem (b := Proc.devRef .tc main_arg1) _ _ (List.forall_iff_forall_mem.mp (by
          simp only [hostOps1, List.Forall, StableHlo.unary_writes, StableHlo.binary_writes, StableHlo.reshape_writes, Finset.mem_singleton]
          repeat' apply And.intro
          all_goals exact StableHlo.devRef_ne_of_ne (by decide)))
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

theorem entry_arg2 : V2 (F := Ideal) m ρ c main_arg2 = m ((c : Thread nD τ).loc main_arg2) :=
  calc W2 m ρ c (Proc.devRef .tc main_arg2)
    _ = W1 m ρ c (Proc.devRef .tc main_arg2) := StableHlo.after_of_forall_not_mem (b := Proc.devRef .tc main_arg2) _ _ (List.forall_iff_forall_mem.mp (by
          simp only [hostOps1, List.Forall, StableHlo.unary_writes, StableHlo.binary_writes, StableHlo.reshape_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl

/-- What the second region finds: the reciprocal square root of the gathered sum as a 1 × 1 array, the vector b as a column, and the three matrices as launched. -/
theorem entry1 (m : (ℓ : Loc nD τ sig) → Buf (Elt Ideal) ℓ) (ρ : Dev nD → PrngReg) (c : Dev nD) :
    (V2 (F := Ideal) m ρ c main_v7 = fun _ => Ideal.rsqrt (Cert.Planar.kerSumsq (m ((c : Thread nD τ).loc main_arg1))))
    ∧ (∀ r : Fin 8192, V2 (F := Ideal) m ρ c main_v8 (ix2 r (0 : Fin 1)) = m ((c : Thread nD τ).loc main_arg3) (ix1 r))
    ∧ V2 (F := Ideal) m ρ c main_arg0 = m ((c : Thread nD τ).loc main_arg0)
    ∧ V2 (F := Ideal) m ρ c main_arg1 = m ((c : Thread nD τ).loc main_arg1)
    ∧ V2 (F := Ideal) m ρ c main_arg2 = m ((c : Thread nD τ).loc main_arg2) :=
  ⟨entry_scale m ρ c, entry_column m ρ c, entry_arg0 m ρ c, entry_arg1 m ρ c, entry_arg2 m ρ c⟩

end Entry

end Cert.KernelIdeal.SumsqValue
end
-- ==== Proof.Tail.lean ====
/-
  What the two result buffers hold once the whole program has run.

  After the second region the program runs one more operation: it takes the 8192 × 1 column the region wrote and lays
  it out as a vector of 8192 entries. That operation writes only the vector's buffer. So the matrix result still
  holds what the region's write-backs left in it, and entry r of the vector result is the entry of the column in row r.
-/
import proofs.«157534_j61649960567178_2_alg».proof.Proof.Gen.KernelIdeal.Frame
import proofs.«157534_j61649960567178_2_alg».proof.Proof.LibLaneEntry
import Idealize.ShloMosaic.Lib.StableHlo.Run
import Idealize.ShloMosaic.Lib.ValueIdx

noncomputable section

namespace Cert.KernelIdeal.Tail

open Cert.KernelIdeal Cert.KernelIdeal.Gen Idealize.ShloMosaic Idealize.ShloMosaic.TcCoe Idealize.ShloMosaic.ValueIdx Idealize.SL.Sem

/-- The last operation does not write the matrix result, so it holds what the second region left there. -/
theorem result_matrix (m : (ℓ : Loc nD τ sig) → Buf (Elt Ideal) ℓ) (ρ : Dev nD → PrngReg) (c : Dev nD) :
    W4 (F := Ideal) m ρ c (Proc.devRef .tc main_v9_0) = (dat1 (F := Ideal) (V2 m ρ) c).arrAt 5 cfg1.N :=
  calc W4 (F := Ideal) m ρ c (Proc.devRef .tc main_v9_0)
    _ = W3 (F := Ideal) m ρ c (Proc.devRef .tc main_v9_0) :=
        StableHlo.after_of_forall_not_mem (b := Proc.devRef .tc main_v9_0) _ _ (List.forall_iff_forall_mem.mp (by
          simp only [hostOps2, List.Forall, StableHlo.reshape_writes, Finset.mem_singleton]
          exact StableHlo.devRef_ne_of_ne (by decide)))
    _ = (dat1 (F := Ideal) (V2 m ρ) c).arrAt 5 cfg1.N := W3_arr m ρ c 5

/-- The vector result is the column the second region left, laid out as a vector. -/
theorem result_vector_eq (m : (ℓ : Loc nD τ sig) → Buf (Elt Ideal) ℓ) (ρ : Dev nD → PrngReg) (c : Dev nD) :
    W4 (F := Ideal) m ρ c (Proc.devRef .tc main_v10)
      = fun i => shapeCast S8192 (W3 (F := Ideal) m ρ c (Proc.devRef .tc main_v9_1)) shapeCasts_S8192x1_S8192 i := by
  show StableHlo.after hostOps2 (W3 (F := Ideal) m ρ c) (Proc.devRef .tc main_v10) = _
  after_results
  rfl

theorem results (m : (ℓ : Loc nD τ sig) → Buf (Elt Ideal) ℓ) (ρ : Dev nD → PrngReg) (c : Dev nD) :
    W4 (F := Ideal) m ρ c (Proc.devRef .tc main_v9_0) = (dat1 (F := Ideal) (V2 m ρ) c).arrAt 5 cfg1.N
    ∧ ∀ r : Fin 8192, W4 (F := Ideal) m ρ c (Proc.devRef .tc main_v10) (ix1 r) = (dat1 (F := Ideal) (V2 m ρ) c).arrAt 6 cfg1.N (ix2 r (0 : Fin 1)) := by
  refine ⟨result_matrix m ρ c, fun r => ?_⟩
  have h1 := congrFun (result_vector_eq m ρ c) (ix1 r)
  refine h1.trans ?_
  refine (Cert.LaneEntry.shapeCast_a1_a_apply _ shapeCasts_S8192x1_S8192 r).trans ?_
  exact congrFun (W3_arr m ρ c 6) (ix2 r (0 : Fin 1))

end Cert.KernelIdeal.Tail

end
-- ==== Proof.KernelValue.lean ====
/-
  The kernel program's two results as functions of its arguments. The last boundary's contents at the result buffers
  are the second region's output arrays (the second through the closing reshape of a column to a vector); those are the
  planar-flow map of the arrays the region finds; and what it finds is the launch memory's three matrices, the vector
  as a column, and the reciprocal square root of the sum of squares the first region gathered tile by tile.
-/
import proofs.«157534_j61649960567178_2_alg».proof.Proof.KernelRun
import proofs.«157534_j61649960567178_2_alg».proof.Proof.PlanarRegion
import proofs.«157534_j61649960567178_2_alg».proof.Proof.SumsqRegion
import proofs.«157534_j61649960567178_2_alg».proof.Proof.Tail

set_option maxRecDepth 16384

noncomputable section

namespace Cert.KernelIdeal.KernelValue

open Cert.KernelIdeal Cert.KernelIdeal.Gen Idealize.ShloMosaic Idealize.ShloMosaic.TcCoe Idealize.ShloMosaic.ValueIdx
open Idealize.SL.Sem Cert.Planar Cert.KernelIdeal.PlanarRegion

variable (m : (ℓ : Loc nD τ sig) → Buf (Elt Ideal) ℓ) (ρ : Dev nD → PrngReg)

/-- The column the second region finds, read as a vector, is the launch memory's vector. -/
theorem colVec_found (c : Dev nD) : colVec (V2 (F := Ideal) m ρ c main_v8) = m ((c : Thread nD τ).loc main_arg3) := by
  funext j
  obtain ⟨r, rfl⟩ : ∃ r : Fin 8192, j = ix1 r := ⟨j 0, eq_ix1 j⟩
  exact (Cert.KernelIdeal.SumsqValue.entry1 m ρ c).2.1 r

/-- The second region's first output array, from the launch memory. -/
theorem found (c : Dev nD) :
    zArr (V2 (F := Ideal) m ρ) c
      = kerZArr (Ideal.rsqrt (kerSumsq (m ((c : Thread nD τ).loc main_arg1))))
          (m ((c : Thread nD τ).loc main_arg0)) (m ((c : Thread nD τ).loc main_arg1)) (m ((c : Thread nD τ).loc main_arg2))
          (m ((c : Thread nD τ).loc main_arg3)) := by
  obtain ⟨h7, -, h0, h1, h2⟩ := Cert.KernelIdeal.SumsqValue.entry1 m ρ c
  unfold zArr
  rw [colVec_found m ρ c, h7, h0, h1, h2]

/-- The second output array, at row r. -/
theorem found_ld (c : Dev nD) (r : Fin 8192) :
    ldArr (V2 (F := Ideal) m ρ) c (ix2 r (0 : Fin 1))
      = kerLd (Ideal.rsqrt (kerSumsq (m ((c : Thread nD τ).loc main_arg1))))
          (m ((c : Thread nD τ).loc main_arg0)) (m ((c : Thread nD τ).loc main_arg1)) (m ((c : Thread nD τ).loc main_arg2))
          (m ((c : Thread nD τ).loc main_arg3)) r := by
  obtain ⟨h7, -, h0, h1, h2⟩ := Cert.KernelIdeal.SumsqValue.entry1 m ρ c
  unfold ldArr
  rw [colVec_found m ρ c, h7, h0, h1, h2]

/-- Every weakly fair execution of the kernel program terminates with its two results at the planar-flow map of the
    arguments — the reciprocal norm gathered tile by tile — and the arguments unchanged. -/
theorem run : θ_run (defs (F := Ideal)) (onTc (τ := τ) (main (F := Ideal))) ⟨m, fun _ => 0, ρ⟩ (fun r => ∀ c : Dev nD,
      r.2.mem ((c.tc : Thread nD τ).loc main_v9_0)
          = kerZArr (Ideal.rsqrt (kerSumsq (m ((c.tc : Thread nD τ).loc main_arg1))))
              (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v10)
          = kerLdArr (Ideal.rsqrt (kerSumsq (m ((c.tc : Thread nD τ).loc main_arg1))))
              (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c).1.trans (((Cert.KernelIdeal.Tail.results m ρ c).1.trans (final5 (V2 m ρ) c)).trans (found m ρ c)),
     (h c).2.1.trans (funext fun i => by
        obtain ⟨q, rfl⟩ : ∃ q : Fin 8192, i = ix1 q := ⟨i 0, eq_ix1 i⟩
        exact ((Cert.KernelIdeal.Tail.results m ρ c).2 q).trans
          ((congrFun (final6 (V2 m ρ) c) (ix2 q (0 : Fin 1))).trans (found_ld m ρ c q))),
     (h c).2.2⟩)
    (Cert.KernelIdeal.KernelRun.run (F := Ideal) m ρ)

end Cert.KernelIdeal.KernelValue

end
-- ==== Proof.RefValue.lean ====
import proofs.«157534_j61649960567178_2_alg».proof.Proof.Gen.ReferenceIdeal.Run
import proofs.«157534_j61649960567178_2_alg».proof.Proof.Gen.ReferenceIdeal.Read
import proofs.«157534_j61649960567178_2_alg».proof.Proof.Spec
import Idealize.ShloMosaic.Lib.ValueIdx

/-!
  The plain program is the specification, entry by entry.

  Fix a row r, with rows w_r, z_r, u_r of the three matrices and the entry b_r of the vector. Reading the plain
  program's operations from the last one inwards, each is a pointwise operation on extended reals, a per-row value
  spread along the columns, or a sum over the columns of a row started from the word for zero (which is 0, and
  0 + x = x). So:
    * the sum of w_r k · u_r k over k is the row's dot product w·u;
    * the inlined softplus guards on "y ≠ y" for y = w·u − 0, which no extended real satisfies, so it always returns
      max (w·u) 0 + log1p (exp (−|w·u − 0|)), the absolute value being max y (−y);
    * the coefficient is (−1 + softplus (w·u)) − w·u, with −1 kept as the word the program carries;
    * the norm is the square root of the sum, from zero, of the squares of ALL entries of w — one number for the
      whole matrix, the same at every row;
    * û k = u_r k + (coefficient · w_r k) / norm;
    * the first result is z_r k + tanh (w·z + b_r) · û k;
    * the second is log |1 + (1 − tanh² (w·z' + b_r)) · (û·w)|, where z' is the first result's row and the products
      under each sum stand in the order the program multiplies them.
  No law of arithmetic beyond 0 + x = x is used: after the reads, both sides are the same expression.
-/

noncomputable section

open scoped BigOperators

namespace Cert.ReferenceIdeal.RefValue

open Cert.ReferenceIdeal Cert.ReferenceIdeal.Gen Idealize.ShloMosaic Idealize.ShloMosaic.TcCoe Idealize.SL.Sem
open Cert.ReferenceIdeal.Read Cert.Planar Idealize.ShloMosaic.ValueIdx

/-- A matrix and a vector of extended reals, as the stages take them. -/
abbrev Mat : Type := (⟨S8192x1024, .f32⟩ : BufTy).Contents (Elt Ideal)
abbrev Vct : Type := (⟨S8192, .f32⟩ : BufTy).Contents (Elt Ideal)

/-! ### Where the layout operations read -/

/-- Summing row `r` over its columns visits the entries `(r, k)`. -/
theorem idx_v1 (r : Fin 8192) (k : Fin 1024) : idx_main_v1 (ix1 r) k = ix2 r k :=
  funext fun a => Fin.ext (by match a with | ⟨0, _⟩ => rfl | ⟨1, _⟩ => rfl)
theorem idx_v16 (r : Fin 8192) (k : Fin 1024) : idx_main_v16 (ix1 r) k = ix2 r k :=
  funext fun a => Fin.ext (by match a with | ⟨0, _⟩ => rfl | ⟨1, _⟩ => rfl)
theorem idx_v24 (r : Fin 8192) (k : Fin 1024) : idx_main_v24 (ix1 r) k = ix2 r k :=
  funext fun a => Fin.ext (by match a with | ⟨0, _⟩ => rfl | ⟨1, _⟩ => rfl)
theorem idx_v31 (r : Fin 8192) (k : Fin 1024) : idx_main_v31 (ix1 r) k = ix2 r k :=
  funext fun a => Fin.ext (by match a with | ⟨0, _⟩ => rfl | ⟨1, _⟩ => rfl)

/-- A per-row value spread along the columns is read, at `(r, k)`, at row `r`. -/
theorem idx_v9_v10 (r : Fin 8192) (k : Fin 1024) : idx_main_v9 (idx_main_v10 (ix2 r k)) = ix1 r :=
  funext fun a => Fin.ext (by match a with | ⟨0, _⟩ => rfl)
theorem idx_v19_v20 (r : Fin 8192) (k : Fin 1024) : idx_main_v19 (idx_main_v20 (ix2 r k)) = ix1 r :=
  funext fun a => Fin.ext (by match a with | ⟨0, _⟩ => rfl)

/-- No extended real differs from itself, so the comparison's bit is clear. -/
theorem cmp_une_self (y : EReal) : Ideal.cmp .une y y = 0#1 := by
  simp [Ideal.cmp]

/-! ### The pieces at a row -/

/-- Row `r` of `w · u`, summed from zero. -/
theorem wu_apply (x1 x2 : Mat) (r : Fin 8192) :
    val_main_v1 (F := Ideal) x1 x2 (ix1 r) = dot (row x1 r) (row x2 r) := by
  rw [val_main_v1_apply, val_main_cst_apply]
  simp only [idx_v1, val_main_v0_apply, Ideal.ofBits_def, Ideal.mulf_def, Ideal.ofBits_zero_f32, zero_add]
  rfl

/-- The inlined softplus at row `r`: the guard compares a value with itself, so the second branch is taken. -/
theorem softplus_apply (x1 x2 : Mat) (r : Fin 8192) :
    val_main_v2 (F := Ideal) x1 x2 (ix1 r) = softplus (dot (row x1 r) (row x2 r)) := by
  rw [val_main_v2_apply, val_main_call0_v4_apply, Ideal.cmpf_def, cmp_une_self, select_zero,
    val_main_call0_v11_apply, val_main_call0_v1_apply, val_main_call0_v0_apply, val_main_call0_cst_apply,
    val_main_call0_v10_apply, val_main_call0_v9_apply, val_main_call0_v8_apply, val_main_call0_v7_apply,
    val_main_call0_v3_apply, val_main_call0_v2_apply, val_main_call0_cst_apply, wu_apply]
  simp only [Ideal.ofBits_def, Ideal.ofBits_zero_f32, Ideal.addf_def, Ideal.subf_def, Ideal.maximumf_def,
    Ideal.hostUnary_log1p_def, Ideal.hostUnary_exp_def, Ideal.hostNegf_def, Ideal.negf_def, Ideal.hostAbsf_def,
    Ideal.absf_def]
  rfl

/-- `(−1 + softplus (w·u)) − w·u` at row `r`. -/
theorem coef_apply (x1 x2 : Mat) (r : Fin 8192) :
    val_main_v8 (F := Ideal) x1 x2 (ix1 r) = coef (row x1 r) (row x2 r) := by
  rw [val_main_v8_apply, val_main_v4_apply, val_main_v3_apply, val_main_cst_0_apply, softplus_apply, wu_apply]
  simp only [Ideal.ofBits_def, Ideal.addf_def, Ideal.subf_def]
  rfl

/-- The norm of the whole matrix: the square root of the sum, from zero, of every entry's square. -/
theorem norm_apply (x1 : Mat) (j : S_.Idx) :
    val_main_v7 (F := Ideal) x1 j = Ideal.sqrt (0 + sumsqAll x1) := by
  rw [val_main_v7_apply, val_main_v6_apply, val_main_cst_1_apply]
  simp only [val_main_v5_apply, Ideal.ofBits_def, Ideal.ofBits_zero_f32, Ideal.mulf_def, Ideal.hostUnary_sqrt_def]
  rfl

/-- û at `(r, k)`, the product divided by the norm. -/
theorem uhat_apply (x1 x2 : Mat) (r : Fin 8192) (k : Fin 1024) :
    val_main_v14 (F := Ideal) x1 x2 (ix2 r k)
      = uhatDiv (Ideal.sqrt (0 + sumsqAll x1)) (row x1 r) (row x2 r) k := by
  rw [val_main_v14_apply, val_main_v13_apply, val_main_v11_apply, val_main_v10_apply, val_main_v9_apply,
    idx_v9_v10, coef_apply, val_main_v12_apply, norm_apply]
  simp only [Ideal.addf_def, Ideal.mulf_def, Ideal.hostDivf_def]
  rfl

/-- `w·z + b` at row `r`. -/
theorem inner_apply (x0 x1 : Mat) (x3 : Vct) (r : Fin 8192) :
    val_main_v17 (F := Ideal) x0 x1 x3 (ix1 r) = inner (row x1 r) (row x0 r) (x3 (ix1 r)) := by
  rw [val_main_v17_apply, val_main_v16_apply, val_main_cst_2_apply]
  simp only [idx_v16, val_main_v15_apply, Ideal.ofBits_def, Ideal.mulf_def, Ideal.addf_def, Ideal.ofBits_zero_f32, zero_add]
  rfl

/-! ### The two results -/

/-- The first result at `(r, k)`: `z + tanh (w·z + b) · û`. -/
theorem z_apply (x0 x1 x2 : Mat) (x3 : Vct) (r : Fin 8192) (k : Fin 1024) :
    val_main_v22 (F := Ideal) x0 x1 x2 x3 (ix2 r k)
      = refZ (Ideal.sqrt (0 + sumsqAll x1)) x0 x1 x2 x3 r k := by
  rw [val_main_v22_apply, val_main_v21_apply, val_main_v20_apply, val_main_v19_apply, idx_v19_v20,
    val_main_v18_apply, inner_apply, uhat_apply]
  simp only [Ideal.addf_def, Ideal.mulf_def, Ideal.hostUnary_tanh_def]
  rfl

/-- The first result, as a whole array. -/
theorem val_main_v22_eq_refZArr (x0 x1 x2 : Mat) (x3 : Vct) :
    val_main_v22 (F := Ideal) x0 x1 x2 x3 = refZArr (Ideal.sqrt (0 + sumsqAll x1)) x0 x1 x2 x3 := by
  funext i
  obtain ⟨r, k, rfl⟩ : ∃ (r : Fin 8192) (k : Fin 1024), i = ix2 r k := ⟨i 0, i 1, eq_ix2 i⟩
  exact z_apply x0 x1 x2 x3 r k

/-- `û·w` at row `r`. -/
theorem s_apply (x1 x2 : Mat) (r : Fin 8192) :
    val_main_v31 (F := Ideal) x1 x2 (ix1 r)
      = dot (uhatDiv (Ideal.sqrt (0 + sumsqAll x1)) (row x1 r) (row x2 r)) (row x1 r) := by
  rw [val_main_v31_apply, val_main_cst_5_apply]
  simp only [idx_v31, val_main_v30_apply, uhat_apply, Ideal.ofBits_def, Ideal.mulf_def, Ideal.ofBits_zero_f32, zero_add]
  rfl

/-- `w·z' + b` at row `r`, with `z'` the first result's row. -/
theorem inner2_apply (x0 x1 x2 : Mat) (x3 : Vct) (r : Fin 8192) :
    val_main_v25 (F := Ideal) x0 x1 x2 x3 (ix1 r)
      = dot (row x1 r) (zOut (uhatDiv (Ideal.sqrt (0 + sumsqAll x1)) (row x1 r) (row x2 r)) (row x1 r) (row x0 r) (x3 (ix1 r)))
          + x3 (ix1 r) := by
  rw [val_main_v25_apply, val_main_v24_apply, val_main_cst_3_apply]
  simp only [idx_v24, val_main_v23_apply, z_apply, Ideal.ofBits_def, Ideal.mulf_def, Ideal.addf_def, Ideal.ofBits_zero_f32, zero_add]
  rfl

/-- The second result at row `r`: `log |1 + (1 − tanh² (w·z' + b)) · (û·w)|`. -/
theorem ld_apply (x0 x1 x2 : Mat) (x3 : Vct) (r : Fin 8192) :
    val_main_v36 (F := Ideal) x0 x1 x2 x3 (ix1 r)
      = refLd (Ideal.sqrt (0 + sumsqAll x1)) x0 x1 x2 x3 r := by
  rw [val_main_v36_apply, val_main_v35_apply, val_main_v34_apply, val_main_v33_apply, val_main_cst_6_apply,
    val_main_v32_apply, val_main_v29_apply, val_main_v28_apply, val_main_cst_4_apply, val_main_v27_apply,
    val_main_v26_apply, inner2_apply, s_apply]
  simp only [Ideal.ofBits_def, Ideal.addf_def, Ideal.subf_def, Ideal.mulf_def, Ideal.hostUnary_tanh_def,
    Ideal.hostUnary_log_def, Ideal.hostAbsf_def, Ideal.absf_def]
  rfl

/-- The second result, as a whole array. -/
theorem val_main_v36_eq_refLdArr (x0 x1 x2 : Mat) (x3 : Vct) :
    val_main_v36 (F := Ideal) x0 x1 x2 x3 = refLdArr (Ideal.sqrt (0 + sumsqAll x1)) x0 x1 x2 x3 := by
  funext i
  obtain ⟨r, rfl⟩ : ∃ r : Fin 8192, i = ix1 r := ⟨i 0, eq_ix1 i⟩
  exact ld_apply x0 x1 x2 x3 r

/-! ### The run -/

/-- Every weakly fair execution of the reference ends with its two results at the specification's two arrays, the
    norm being the square root of the sum of all squares of `w`, and with the four arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v22)
          = Cert.Planar.refZArr (Ideal.sqrt (0 + Cert.Planar.sumsqAll (m ((c.tc : Thread nD τ).loc main_arg1))))
              (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v36)
          = Cert.Planar.refLdArr (Ideal.sqrt (0 + Cert.Planar.sumsqAll (m ((c.tc : Thread nD τ).loc main_arg1))))
              (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c).1.trans ((val_main_v22_eq (F := Ideal) _ _ _ _).trans (val_main_v22_eq_refZArr _ _ _ _)),
       (h c).2.1.trans ((val_main_v36_eq (F := Ideal) m c).trans (val_main_v36_eq_refLdArr _ _ _ _)),
       (h c).2.2⟩)
    (Cert.ReferenceIdeal.Value.run (F := Ideal) m ρ)

end Cert.ReferenceIdeal.RefValue

end
-- ==== Proof.Algebra.lean ====
/-
  The algebra behind the two ways of writing the planar-flow map, on the extended reals.

  Three facts are proved. First, gathering the sum of squares of a matrix tile by tile (eight blocks of 1024 rows,
  added in a fixed bracketing starting from zero) gives the same extended real as adding zero to the sum over the whole
  index set: addition of extended reals is commutative and associative with no side condition. Second, when the sum of
  squares S is a positive real, multiplying the coefficient by 1/√S before the entry of w, or dividing the product by
  √S afterwards, gives the same corrected vector, for any extended-real entries. Third, when every entry is a real
  number, the inner product recomputed from the shifted row equals the old inner product plus the tanh factor times
  Σ û·w, because over the reals multiplication distributes over the finite sum; this is the one step that fails at the
  infinities, so it is carried out on real witnesses.
-/
import proofs.«157534_j61649960567178_2_alg».proof.Proof.Spec
import Mathlib.Algebra.BigOperators.Fin
import Mathlib.Tactic

noncomputable section

open scoped BigOperators

namespace Cert.Planar

open Idealize.ShloMosaic Idealize.ShloMosaic.ValueIdx

/-- An extended real that is an ordinary real number. -/
def IsReal (x : EReal) : Prop := ∃ r : ℝ, x = (r : EReal)

namespace IsReal

theorem coe (r : ℝ) : IsReal (r : EReal) := ⟨r, rfl⟩

theorem zero : IsReal (0 : EReal) := ⟨0, rfl⟩

theorem one : IsReal (1 : EReal) := ⟨1, rfl⟩

theorem add {x y : EReal} (hx : IsReal x) (hy : IsReal y) : IsReal (x + y) := by
  obtain ⟨a, rfl⟩ := hx
  obtain ⟨b, rfl⟩ := hy
  exact ⟨a + b, (EReal.coe_add a b).symm⟩

theorem mul {x y : EReal} (hx : IsReal x) (hy : IsReal y) : IsReal (x * y) := by
  obtain ⟨a, rfl⟩ := hx
  obtain ⟨b, rfl⟩ := hy
  exact ⟨a * b, (EReal.coe_mul a b).symm⟩

theorem neg {x : EReal} (hx : IsReal x) : IsReal (-x) := by
  obtain ⟨a, rfl⟩ := hx
  exact ⟨-a, (EReal.coe_neg a).symm⟩

theorem sub {x y : EReal} (hx : IsReal x) (hy : IsReal y) : IsReal (x - y) := by
  obtain ⟨a, rfl⟩ := hx
  obtain ⟨b, rfl⟩ := hy
  exact ⟨a - b, (EReal.coe_sub a b).symm⟩

theorem max {x y : EReal} (hx : IsReal x) (hy : IsReal y) : IsReal (max x y) := by
  rcases max_choice x y with h | h <;> rw [h] <;> assumption

theorem sum {ι : Type} (s : Finset ι) (f : ι → EReal) (hf : ∀ i, IsReal (f i)) : IsReal (∑ i ∈ s, f i) := by
  classical
  induction s using Finset.induction_on with
  | empty => simpa using zero
  | insert a s ha ih => rw [Finset.sum_insert ha]; exact add (hf a) ih

/-- The hyperbolic tangent of any extended real is a real number: its values at the two infinities are −1 and 1. -/
theorem tanh (x : EReal) : IsReal (Ideal.tanh x) := by
  induction x using EReal.rec with
  | bot => exact ⟨-1, by simp⟩
  | coe r => exact ⟨Real.tanh r, rfl⟩
  | top => exact ⟨1, by simp⟩

end IsReal

/-- The coercion from the reals commutes with finite sums. -/
theorem coe_finsum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word for −1 is the real −1. -/
theorem negOne_eq : negOne = ((-1 : ℝ) : EReal) := by
  simp [negOne, Ideal.ofBits, Ideal.ieee, -EReal.coe_mul]; norm_num

/-- The word for 1 is the real 1. -/
theorem posOne_eq : posOne = ((1 : ℝ) : EReal) := by
  simp [posOne, Ideal.ofBits, Ideal.ieee, -EReal.coe_mul]; norm_num

/-- The softplus of a real number is a real number: the exponential of a real is a positive real, so one plus it has a
    real logarithm. -/
theorem softplus_isReal {x : EReal} (hx : IsReal x) : IsReal (softplus x) := by
  obtain ⟨a, rfl⟩ := hx
  unfold softplus
  refine IsReal.add (IsReal.max (IsReal.coe a) IsReal.zero) ?_
  have h1 : IsReal (-(Max.max ((a : EReal) - 0) (-((a : EReal) - 0)))) :=
    IsReal.neg (IsReal.max (IsReal.sub (IsReal.coe a) IsReal.zero) (IsReal.neg (IsReal.sub (IsReal.coe a) IsReal.zero)))
  obtain ⟨e, he⟩ := h1
  rw [he, Ideal.exp_coe, Ideal.log1p]
  have h2 : (1 : EReal) + ((Real.exp e : ℝ) : EReal) = ((1 + Real.exp e : ℝ) : EReal) := by
    rw [EReal.coe_add, EReal.coe_one]
  rw [h2, Ideal.log_coe, if_neg (by have := Real.exp_pos e; linarith)]
  exact IsReal.coe _

section Row

variable {ι : Type} [Fintype ι]

/-- For a positive real S, the reciprocal square root and the square root are the reals 1/√S and √S. -/
theorem rsqrt_pos {s : ℝ} (hs : 0 < s) : Ideal.rsqrt (s : EReal) = (((Real.sqrt s)⁻¹ : ℝ) : EReal) := by
  rw [Ideal.rsqrt_coe, if_neg (not_lt.mpr hs.le), if_neg hs.ne']

theorem sqrt_pos {s : ℝ} (hs : 0 < s) : Ideal.sqrt (s : EReal) = ((Real.sqrt s : ℝ) : EReal) := by
  rw [Ideal.sqrt_coe, if_neg (not_lt.mpr hs.le)]

/-- Multiplying the coefficient by 1/√S first, or dividing the product by √S last, is the same corrected entry: the
    quotient by a nonzero real is the product with its reciprocal, and products of extended reals may be reordered
    freely. No entry needs to be finite. -/
theorem uhat_eq {s : ℝ} (hs : 0 < s) (w u : ι → EReal) (k : ι) :
    uhatMul (Ideal.rsqrt (s : EReal)) w u k = uhatDiv (Ideal.sqrt (s : EReal)) w u k := by
  have hne : Real.sqrt s ≠ 0 := (Real.sqrt_pos.mpr hs).ne'
  unfold uhatMul uhatDiv
  rw [rsqrt_pos hs, sqrt_pos hs, Ideal.div_coe hne, one_div, mul_right_comm]

/-- The inner product of real rows is real. -/
theorem dot_isReal {x y : ι → EReal} (hx : ∀ k, IsReal (x k)) (hy : ∀ k, IsReal (y k)) : IsReal (dot x y) :=
  IsReal.sum _ _ fun k => IsReal.mul (hx k) (hy k)

theorem coef_isReal {w u : ι → EReal} (hw : ∀ k, IsReal (w k)) (hu : ∀ k, IsReal (u k)) : IsReal (coef w u) := by
  unfold coef
  exact IsReal.sub (IsReal.add (negOne_eq ▸ IsReal.coe (-1)) (softplus_isReal (dot_isReal hw hu))) (dot_isReal hw hu)

/-- The corrected row is real when the factor and both rows are. -/
theorem uhatMul_isReal {c : EReal} {w u : ι → EReal} (hc : IsReal c) (hw : ∀ k, IsReal (w k)) (hu : ∀ k, IsReal (u k))
    (k : ι) : IsReal (uhatMul c w u k) :=
  IsReal.add (hu k) (IsReal.mul (IsReal.mul (coef_isReal hw hu) hc) (hw k))

/-- Over the reals, the inner product of w with the shifted row z + t·û, plus b, is the old inner product plus
    t · Σ û·w: multiplication distributes over the finite sum. -/
theorem inner2_real (W Z UH : ι → ℝ) (B T : ℝ) :
    ((∑ k, W k * Z k) + B) + T * ∑ k, UH k * W k = (∑ k, W k * (Z k + T * UH k)) + B := by
  have h : ∀ k, W k * (Z k + T * UH k) = W k * Z k + T * (UH k * W k) := fun k => by ring
  simp only [h, Finset.sum_add_distrib, Finset.mul_sum]
  ring

/-- With every entry real, the two forms of the second result agree: they are the same function of inner₂ and of
    Σ û·w, and the two inner₂ are equal by the identity above read on real witnesses. -/
theorem ld_eq {uh w z : ι → EReal} {b : EReal} (huh : ∀ k, IsReal (uh k)) (hw : ∀ k, IsReal (w k))
    (hz : ∀ k, IsReal (z k)) (hb : IsReal b) : ldFused uh w z b = ldPlain uh w z b := by
  choose UH hUH using huh
  choose W hW using hw
  choose Z hZ using hz
  obtain ⟨B, rfl⟩ := hb
  obtain ⟨T, hT⟩ := IsReal.tanh (inner w z (B : EReal))
  unfold ldFused ldPlain
  congr 1
  unfold zOut shift
  rw [hT]
  unfold inner dot
  simp only [hUH, hW, hZ]
  simp only [← EReal.coe_mul, ← EReal.coe_add, ← coe_finsum]
  exact congrArg _ (inner2_real W Z UH B T)

end Row

/-! ### The sum of squares, tile by tile -/

/-- Rows 0 … 8191 are the pairs (tile, row inside the tile): r ↦ (r / 1024, r % 1024). -/
def tileEquiv : Fin 8 × Fin 1024 ≃ Fin 8192 where
  toFun x := tileRow x.1 x.2
  invFun r := (⟨r.val / 1024, by have := r.isLt; omega⟩, ⟨r.val % 1024, by omega⟩)
  left_inv := by
    rintro ⟨t, p⟩
    have ht := t.isLt
    have hp := p.isLt
    ext
    · show (1024 * t.val + p.val) / 1024 = t.val
      omega
    · show (1024 * t.val + p.val) % 1024 = p.val
      omega
  right_inv := by
    intro r
    ext
    show 1024 * (r.val / 1024) + r.val % 1024 = r.val
    omega

/-- A sum over all 8192 rows is the sum over the eight tiles of the sums over each tile's rows. -/
theorem sum_rows_tiles {M : Type} [AddCommMonoid M] (g : Fin 8192 → M) :
    ∑ r, g r = ∑ t : Fin 8, ∑ p : Fin 1024, g (tileRow t p) := by
  rw [← Equiv.sum_comp tileEquiv g, Fintype.sum_prod_type]
  rfl

/-- The sum over the whole index set is the sum of the eight tiles' sums. -/
theorem sumsqAll_tiles (w : SM.Idx → EReal) : sumsqAll w = ∑ t : Fin 8, tileSumsq w t := by
  unfold sumsqAll tileSumsq
  rw [sum_idx2 (fun i => w i * w i), sum_rows_tiles]

/-- Accumulating the tiles four to a half from zero and adding the halves is zero plus the whole sum: addition of
    extended reals is associative and zero is its unit. -/
theorem kerSumsq_eq (w : SM.Idx → EReal) : kerSumsq w = 0 + sumsqAll w := by
  rw [sumsqAll_tiles, Fin.sum_univ_eight]
  unfold kerSumsq halfSumsq
  simp only [zero_add, add_assoc]

/-! ### The two bridges -/

/-- With real entries the sum of all squares is a real number. -/
theorem sumsqAll_isReal {w : SM.Idx → EReal} (hw : ∀ i, IsReal (w i)) : IsReal (sumsqAll w) :=
  IsReal.sum _ _ fun i => IsReal.mul (hw i) (hw i)

/-- With real entries and a positive sum of squares, that sum is a positive real S. -/
theorem sumsq_pos_real {w : SM.Idx → EReal} (hw : ∀ i, IsReal (w i)) (hpos : (0 : EReal) < 0 + sumsqAll w) :
    ∃ s : ℝ, 0 < s ∧ 0 + sumsqAll w = (s : EReal) := by
  obtain ⟨s, hs⟩ := sumsqAll_isReal hw
  rw [zero_add, hs] at hpos
  exact ⟨s, EReal.coe_pos.mp hpos, by rw [zero_add, hs]⟩

theorem bridge_z (z w u : SM.Idx → EReal) (b : SV.Idx → EReal)
    (hw : ∀ i, IsReal (w i)) (hpos : (0 : EReal) < 0 + sumsqAll w) (r : Fin 8192) (k : Fin 1024) :
    kerZ (Ideal.rsqrt (kerSumsq w)) z w u b r k = refZ (Ideal.sqrt (0 + sumsqAll w)) z w u b r k := by
  obtain ⟨s, hs, hS⟩ := sumsq_pos_real hw hpos
  rw [kerSumsq_eq, hS]
  unfold kerZ refZ zOut shift
  rw [uhat_eq hs]

theorem bridge_ld (z w u : SM.Idx → EReal) (b : SV.Idx → EReal)
    (hz : ∀ i, IsReal (z i)) (hw : ∀ i, IsReal (w i)) (hu : ∀ i, IsReal (u i)) (hb : ∀ i, IsReal (b i))
    (hpos : (0 : EReal) < 0 + sumsqAll w) (r : Fin 8192) :
    kerLd (Ideal.rsqrt (kerSumsq w)) z w u b r = refLd (Ideal.sqrt (0 + sumsqAll w)) z w u b r := by
  obtain ⟨s, hs, hS⟩ := sumsq_pos_real hw hpos
  rw [kerSumsq_eq, hS]
  unfold kerLd refLd
  have hfun : uhatMul (Ideal.rsqrt (s : EReal)) (row w r) (row u r) = uhatDiv (Ideal.sqrt (s : EReal)) (row w r) (row u r) :=
    funext fun k => uhat_eq hs _ _ k
  have hc : IsReal (Ideal.rsqrt (s : EReal)) := by rw [rsqrt_pos hs]; exact IsReal.coe _
  have hwr : ∀ k, IsReal (row w r k) := fun k => hw _
  have hur : ∀ k, IsReal (row u r k) := fun k => hu _
  have hzr : ∀ k, IsReal (row z r k) := fun k => hz _
  rw [← hfun]
  exact ld_eq (fun k => uhatMul_isReal hc hwr hur k) hwr hzr (hb _)

end Cert.Planar

end
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.LibMatAssoc.lean ====
/-
  Matrices of real entries on the extended reals.

  A row of a matrix product depends on the left factor through that one row only. The product of three matrices
  whose entries are all real (neither infinity) is associative: on the extended reals that takes distributivity of
  the product over a finite sum, which fails at the infinities, so the sums are computed in the reals and carried
  back through the embedding, which commutes with finite sums and with products.
-/
import proofs.«157534_j61649960567178_2_alg».proof.Proof.LibDense

noncomputable section

open scoped BigOperators

namespace Cert.Gcn

open Cert.Dense Idealize.ShloMosaic Idealize.ShloMosaic.ValueIdx

variable {M K L N : ℕ}

/-- Every entry is a real number (neither infinity). -/
def Finite {s : Shape} (X : s.Idx → EReal) : Prop := ∀ i, ∃ r : ℝ, X i = (r : EReal)

/-- The embedding of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Row `p` of `blk · W` is row `r` of `A · W` when row `p` of `blk` is row `r` of `A`. -/
theorem mm_row {M' : ℕ} (A : Mat M' K) (blk : Mat M K) (W : Mat K N) (p : Fin M) (r : Fin M')
    (h : ∀ k, blk (ix2 p k) = A (ix2 r k)) (q : Fin N) : mm blk W (ix2 p q) = mm A W (ix2 r q) := by
  show ∑ k : Fin K, blk (ix2 p k) * W (ix2 k q) = ∑ k : Fin K, A (ix2 r k) * W (ix2 k q)
  exact Finset.sum_congr rfl fun k _ => by rw [h k]

/-- Associativity of a triple product of real numbers summed over two finite axes. -/
theorem real_assoc (a : Fin K → ℝ) (x : Fin K → Fin L → ℝ) (w : Fin L → ℝ) :
    ∑ l : Fin L, (∑ k : Fin K, a k * x k l) * w l = ∑ k : Fin K, a k * ∑ l : Fin L, x k l * w l := by
  simp_rw [Finset.sum_mul, Finset.mul_sum]
  rw [Finset.sum_comm]
  exact Finset.sum_congr rfl fun k _ => Finset.sum_congr rfl fun l _ => by ring

/-- The product of three matrices of real entries is associative on the extended reals. -/
theorem mm_assoc (A : Mat M K) (X : Mat K L) (W : Mat L N) (hA : Finite A) (hX : Finite X) (hW : Finite W) :
    mm (mm A X) W = mm A (mm X W) := by
  funext i
  obtain ⟨p, q, rfl⟩ : ∃ (p : Fin M) (q : Fin N), i = ix2 p q := ⟨i 0, i 1, eq_ix2 i⟩
  choose a ha using hA
  choose x hx using hX
  choose w hw using hW
  have hl : mm (mm A X) W (ix2 p q)
      = ((∑ l : Fin L, (∑ k : Fin K, a (ix2 p k) * x (ix2 k l)) * w (ix2 l q) : ℝ) : EReal) := by
    show ∑ l : Fin L, (∑ k : Fin K, A (ix2 p k) * X (ix2 k l)) * W (ix2 l q) = _
    rw [coe_sum]
    refine Finset.sum_congr rfl fun l _ => ?_
    rw [EReal.coe_mul, coe_sum, hw]
    refine congrArg (· * (w (ix2 l q) : EReal)) (Finset.sum_congr rfl fun k _ => ?_)
    rw [EReal.coe_mul, ha, hx]
  have hr : mm A (mm X W) (ix2 p q)
      = ((∑ k : Fin K, a (ix2 p k) * ∑ l : Fin L, x (ix2 k l) * w (ix2 l q) : ℝ) : EReal) := by
    show ∑ k : Fin K, A (ix2 p k) * (∑ l : Fin L, X (ix2 k l) * W (ix2 l q)) = _
    rw [coe_sum]
    refine Finset.sum_congr rfl fun k _ => ?_
    rw [EReal.coe_mul, coe_sum, ha]
    refine congrArg ((a (ix2 p k) : EReal) * ·) (Finset.sum_congr rfl fun l _ => ?_)
    rw [EReal.coe_mul, hx, hw]
  rw [hl, hr]
  exact congrArg _ (real_assoc (fun k => a (ix2 p k)) (fun k l => x (ix2 k l)) (fun l => w (ix2 l q)))

end Cert.Gcn

end
-- ==== Proof.LibFinite.lean ====
/-
  "Every entry is finite", decoded.

  A precondition states it of an array as the conjunction over the array of the test |x| < +∞, the bound being the
  f32 word of +∞. An extended real whose absolute value is below +∞ is neither infinity, so it is a real; and a
  conjunction over an array that holds is every one of its terms.
-/
import proofs.«157534_j61649960567178_2_alg».proof.Proof.LibMatAssoc
import Idealize.ShloMosaic.Lib.ReduceAll
import Idealize.ShloMosaic.Lib.Affine

noncomputable section

namespace Cert.Gcn

open Idealize.ShloMosaic Idealize.ShloMosaic.ValueIdx

/-- An extended real with |x| < +∞ (the test the precondition makes, against the f32 word of +∞) is a real. -/
theorem real_of_abs_lt_inf (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  induction x using EReal.rec with
  | bot => simp at hlt
  | coe r => exact ⟨r, rfl⟩
  | top => simp at hlt

instance : Subsingleton (⟨0, ![]⟩ : Shape).Idx := ⟨fun a b => funext fun d => d.elim0⟩

/-- One input's conjunct: the test holds at every index, so every entry is real. -/
theorem finite_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf x) (broadcastInDim s ![] hb (constant (F := Ideal) ⟨0, ![]⟩ .f32 0x7F800000#32)))
          (constantI ⟨0, ![]⟩ 1 1#1) hr hu ix0 = 1#1) : Finite x := by
  intro i
  have hi := Host.reduce_andi_all _ _ hr hu ix0 e i
  have hi' : Ideal.cmp .olt (max (x i) (-(x i)))
      (broadcastInDim s ![] hb (constant (F := Ideal) ⟨0, ![]⟩ .f32 0x7F800000#32) i) = 1#1 := hi
  rw [broadcastInDim_apply ![] hb _ i ix0 (fun ax => ax.elim0)] at hi'
  exact real_of_abs_lt_inf (x i) hi'

end Cert.Gcn

end
-- ==== Proof.PreDecode.lean ====
/-
  The precondition, read back as statements about the four argument arrays.

  The precondition is a conjunction of five one-bit tests: for each of the three matrices and for the vector, "every
  entry has absolute value below +∞", and last "the sum of the squares of all entries of the second matrix, added to
  zero, is above zero". A conjunction of bits is 1 exactly when each bit is 1. An entry whose absolute value is below
  +∞ is a real number. The sum over every axis of a matrix has a single result entry, so it collects the whole index
  set: it is zero plus the sum of all squares, and the test says that this extended real is positive.
-/
import proofs.«157534_j61649960567178_2_alg».proof.Proof.Algebra
import proofs.«157534_j61649960567178_2_alg».proof.Proof.Gen.Pre_finite_inputs
import proofs.«157534_j61649960567178_2_alg».proof.Proof.LibFinite
import Idealize.ShloMosaic.Lib.ReduceAll
import Idealize.ShloMosaic.PureOps.Ideal.Laws

noncomputable section

open scoped BigOperators

namespace Cert.Planar

open Idealize.ShloMosaic Idealize.ShloMosaic.ValueIdx

/-- The strict comparison "a above b" giving the bit 1 says b < a. -/
theorem lt_of_cmp_ogt {a b : EReal} (h : Ideal.cmp .ogt a b = 1#1) : b < a := by
  by_contra hn
  unfold Ideal.cmp at h
  simp [hn] at h

/-- The fifth test: the total of the entrywise squares of w, started from zero, is above zero. The total over both axes
    has one result entry, so every index contributes to it. -/
theorem sumsq_pos_of_test (w : FVec Ideal Cert.Pre_finite_inputs.S8192x1024 .f32)
    (hr : Cert.Pre_finite_inputs.S8192x1024.ReducesTo [0, 1] Cert.Pre_finite_inputs.S_)
    (hu : 0 < Cert.Pre_finite_inputs.S_.numel)
    (e : cmpf .ogt (Host.reduceAdd (mulf w w) (constant (F := Ideal) Cert.Pre_finite_inputs.S_ .f32 0x00000000#32) hr hu)
          (constant (F := Ideal) Cert.Pre_finite_inputs.S_ .f32 0x00000000#32) ix0 = 1#1) :
    (0 : EReal) < 0 + sumsqAll w := by
  have e' : Ideal.cmp .ogt (Ideal.hostReduceAdd hr (mulf w w) (Ideal.ofBits .f32 0x00000000#32) ix0)
      (Ideal.ofBits .f32 0x00000000#32) = 1#1 := e
  have hlt := lt_of_cmp_ogt e'
  rw [Ideal.hostReduceAdd_total hr (fun b => b.elim0), Ideal.ofBits_zero_f32] at hlt
  exact hlt

theorem decode (z w u : FVec Ideal Cert.Pre_finite_inputs.S8192x1024 .f32) (b : FVec Ideal Cert.Pre_finite_inputs.S8192 .f32)
    (h : Cert.Pre_finite_inputs.fn (F := Ideal) z w u b = fun _ => 1#1) :
    (∀ i, IsReal (z i)) ∧ (∀ i, IsReal (w i)) ∧ (∀ i, IsReal (u i)) ∧ (∀ i, IsReal (b i)) ∧ (0 : EReal) < 0 + sumsqAll w := by
  have h0 := congrFun h ix0
  dsimp only [Cert.Pre_finite_inputs.fn, Cert.Pre_finite_inputs.fn_part1] at h0
  obtain ⟨h1234, h5⟩ := IntOp.andi_eq_one.1 (show IntOp.andi _ _ = 1#1 from h0)
  obtain ⟨h123, h4⟩ := IntOp.andi_eq_one.1 (show IntOp.andi _ _ = 1#1 from h1234)
  obtain ⟨h12, h3⟩ := IntOp.andi_eq_one.1 (show IntOp.andi _ _ = 1#1 from h123)
  obtain ⟨h1, h2⟩ := IntOp.andi_eq_one.1 (show IntOp.andi _ _ = 1#1 from h12)
  exact ⟨fun i => Cert.Gcn.finite_of_all z _ _ _ h1 i, fun i => Cert.Gcn.finite_of_all w _ _ _ h2 i,
    fun i => Cert.Gcn.finite_of_all u _ _ _ h3 i, fun i => Cert.Gcn.finite_of_all b _ _ _ h4 i,
    sumsq_pos_of_test w _ _ h5⟩

end Cert.Planar

end
-- ==== Proof.lean ====
/-
  The certificate of the planar-flow kernel against its reference.

  Both programs map matrices z, w, u (8192 × 1024) and a vector b to z' = z + tanh(w·z + b) · û and
  log |1 + (1 − tanh² inner₂) · (û·w)| row by row, with û = u + ((−1 + softplus(w·u)) − w·u) · w / ‖w‖ and ‖w‖ the norm of
  the WHOLE matrix w. The kernel gathers Σ w² tile by tile in a first region (eight tiles of 1024 rows, four to a half,
  each half accumulated from zero), adds the halves and takes the reciprocal square root on the host, and in a second
  region multiplies the coefficient by it before the product with w, reusing û·w for inner₂ = inner + t · (û·w); the
  reference sums Σ w² at once, divides the product by its square root, and sums inner₂ = Σ w·z' + b afresh.

  On the extended reals the two agree where Σ w² is a positive real and the entries are real:
    (a · s^(−1/2)) · w = (a · w) / s^(1/2)   for a positive real s (products commute and associate unconditionally),
    Σ_k w_k (z_k + t û_k) + b = (Σ_k w_k z_k + b) + t Σ_k û_k w_k   over the reals (distributivity fails at infinities),
  and a sum over the index set is its sum over tiles in any grouping. The precondition — every entry finite, and
  Σ w² > 0, outside which the reference itself divides zero by zero — supplies exactly that.

  The frames of the two kernel programs are the generated ones; the reference's is its run with the results dropped;
  the idealization rewrote no operation.
-/
import proofs.«157534_j61649960567178_2_alg».proof.Defs
import proofs.«157534_j61649960567178_2_alg».proof.Proof.Gen.Kernel
import proofs.«157534_j61649960567178_2_alg».proof.Proof.Gen.Kernel.Skeleton
import proofs.«157534_j61649960567178_2_alg».proof.Proof.Gen.Kernel.Launch
import proofs.«157534_j61649960567178_2_alg».proof.Proof.Gen.Kernel.Points
import proofs.«157534_j61649960567178_2_alg».proof.Proof.Gen.Kernel.Frame
import proofs.«157534_j61649960567178_2_alg».proof.Proof.Gen.KernelIdeal
import proofs.«157534_j61649960567178_2_alg».proof.Proof.Gen.KernelIdeal.Skeleton
import proofs.«157534_j61649960567178_2_alg».proof.Proof.Gen.KernelIdeal.Launch
import proofs.«157534_j61649960567178_2_alg».proof.Proof.Gen.KernelIdeal.Points
import proofs.«157534_j61649960567178_2_alg».proof.Proof.Gen.KernelIdeal.Frame
import proofs.«157534_j61649960567178_2_alg».proof.Proof.Gen.ReferenceIdeal
import proofs.«157534_j61649960567178_2_alg».proof.Proof.Gen.Pre_finite_inputs
import proofs.«157534_j61649960567178_2_alg».proof.Proof.Gen.ReferenceIdeal.Run
import proofs.«157534_j61649960567178_2_alg».proof.Proof.Gen.ReferenceIdeal.Read
import proofs.«157534_j61649960567178_2_alg».proof.Proof.KernelValue
import proofs.«157534_j61649960567178_2_alg».proof.Proof.RefValue
import proofs.«157534_j61649960567178_2_alg».proof.Proof.Algebra
import proofs.«157534_j61649960567178_2_alg».proof.Proof.PreDecode
import Idealize.ShloMosaic.Adequacy
import Idealize.ShloMosaic.Init

noncomputable section

namespace Cert.Proof

open Idealize.ShloMosaic Idealize.SL.Sem Cert.Planar

theorem frame_k : Cert.frame_Kernel := fun m ρ _ => Cert.Kernel.Gen.frame m ρ

theorem frame_ki : Cert.frame_KernelIdeal := fun m ρ _ => Cert.KernelIdeal.Gen.frame m ρ

/-- The reference's frame: its run, the results dropped. -/
theorem frame_ri : Cert.frame_ReferenceIdeal := fun m ρ _ =>
  (θ_run Cert.ReferenceIdeal.defs _ _).mono (fun _ h c => (h c).2.2) (Cert.ReferenceIdeal.RefValue.run m ρ)

theorem preserves : Cert.preserves_Kernel_KernelIdeal := trivial

/-- From memories agreeing on the arguments both programs end at the planar-flow map of them: the kernel's with the
    reciprocal norm gathered tile by tile and multiplied in, the reference's with the norm divided out; under the
    precondition these are one function, entry by entry. -/
theorem algebraic : Cert.algebraic_KernelIdeal_ReferenceIdeal := by
  intro m ρ m' ρ' hpre hagree
  refine ⟨_, _, Cert.KernelIdeal.KernelValue.run m ρ, ?_⟩
  refine (θ_run Cert.ReferenceIdeal.defs _ _).mono (fun _ h c => ⟨(h c).1.trans ?_, (h c).2.1.trans ?_, (h c).2.2⟩)
    (Cert.ReferenceIdeal.RefValue.run m' ρ')
  · rw [(hagree c).1, (hagree c).2.1, (hagree c).2.2.1, (hagree c).2.2.2]
    obtain ⟨hz, hw, hu, hb, hpos⟩ := Cert.Planar.decode _ _ _ _ (hpre c)
    funext i
    exact (bridge_z _ _ _ _ hw hpos (i 0) (i 1)).symm
  · rw [(hagree c).1, (hagree c).2.1, (hagree c).2.2.1, (hagree c).2.2.2]
    obtain ⟨hz, hw, hu, hb, hpos⟩ := Cert.Planar.decode _ _ _ _ (hpre c)
    funext i
    exact (bridge_ld _ _ _ _ hz hw hu hb hpos (i 0)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
